-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x1024x256 : Shape := ⟨4, ![1, 128, 1024, 256]⟩
abbrev S1x128x128x8 : Shape := ⟨4, ![1, 128, 128, 8]⟩
abbrev S256x256 : Shape := ⟨2, ![256, 256]⟩
abbrev S256 : Shape := ⟨1, ![256]⟩
abbrev S_ : Shape := ⟨0, ![]⟩

class Facts : Prop where
  bcast_S_S1x128x1024x256 : S_.BroadcastsInDim S1x128x1024x256 (![] : Fin 0 → Fin S1x128x1024x256.rank)
  reducesTo_S1x128x1024x256_S_d0_1_2_3 : S1x128x1024x256.ReducesTo [0, 1, 2, 3] S_
  h_S_ : 0 < S_.numel
  bcast_S_S1x128x128x8 : S_.BroadcastsInDim S1x128x128x8 (![] : Fin 0 → Fin S1x128x128x8.rank)
  reducesTo_S1x128x128x8_S_d0_1_2_3 : S1x128x128x8.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256x256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S1x128x1024x256 .f32) (main_arg1 : FVec F S1x128x128x8 .f32) (main_arg2 : FVec F S256x256 .f32) (main_arg3 : FVec F S256x256 .f32) (main_arg4 : FVec F S256x256 .f32) (main_arg5 : FVec F S256x256 .f32) (main_arg6 : FVec F S256 .f32) (main_arg7 : FVec F S256x256 .f32) (main_arg8 : FVec F S256 .f32) : IVec S_ 1 :=
  let main_v0 : FVec F S1x128x1024x256 .f32 := Host.absf main_arg0
  let main_cst : FVec F S_ .f32 := constant S_ .f32 0x7F800000#32
  let main_v1 : FVec F S1x128x1024x256 .f32 := broadcastInDim S1x128x1024x256 ![] bcast_S_S1x128x1024x256 main_cst
  let main_v2 : IVec S1x128x1024x256 1 := cmpf .olt main_v0 main_v1
  let main_c : IVec S_ 1 := constantI S_ 1 1#1
  let main_v3 : IVec S_ 1 := (fun x v => Host.reduce IntOp.andi x v reducesTo_S1x128x1024x256_S_d0_1_2_3 h_S_) main_v2 main_c
  let main_v4 : FVec F S1x128x128x8 .f32 := Host.absf main_arg1
  let main_cst_0 : FVec F S_ .f32 := constant S_ .f32 0x7F800000#32
  let main_v5 : FVec F S1x128x128x8 .f32 := broadcastInDim S1x128x128x8 ![] bcast_S_S1x128x128x8 main_cst_0
  let main_v6 : IVec S1x128x128x8 1 := cmpf .olt main_v4 main_v5
  let main_c_1 : IVec S_ 1 := constantI S_ 1 1#1
  let main_v7 : IVec S_ 1 := (fun x v => Host.reduce IntOp.andi x v reducesTo_S1x128x128x8_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S1x128x1024x256 : Shape := ⟨4, ![1, 128, 1024, 256]⟩
abbrev S1x128x128x8 : Shape := ⟨4, ![1, 128, 128, 8]⟩
abbrev S256x256 : Shape := ⟨2, ![256, 256]⟩
abbrev S256 : Shape := ⟨1, ![256]⟩
abbrev S128x128x8 : Shape := ⟨3, ![128, 128, 8]⟩
abbrev S8x128x128 : Shape := ⟨3, ![8, 128, 128]⟩
abbrev S1x128x8x256 : Shape := ⟨4, ![1, 128, 8, 256]⟩
abbrev S128x8x256 : Shape := ⟨3, ![128, 8, 256]⟩
abbrev S1024x256 : Shape := ⟨2, ![1024, 256]⟩
abbrev S1x256 : Shape := ⟨2, ![1, 256]⟩
abbrev S128x8x8x32 : Shape := ⟨4, ![128, 8, 8, 32]⟩
abbrev S8x8x128x32 : Shape := ⟨4, ![8, 8, 128, 32]⟩
abbrev S64x128x32 : Shape := ⟨3, ![64, 128, 32]⟩
abbrev S64x128x128 : Shape := ⟨3, ![64, 128, 128]⟩
abbrev S8x8x128x128 : Shape := ⟨4, ![8, 8, 128, 128]⟩
abbrev S1x8x128x128 : Shape := ⟨4, ![1, 8, 128, 128]⟩
abbrev S8x8x128 : Shape := ⟨3, ![8, 8, 128]⟩
abbrev S8x8x128x1 : Shape := ⟨4, ![8, 8, 128, 1]⟩

abbrev nBuf : Space → Nat
  | .hbm => 12
  | .vmem => 12
  | .smem => 0
  | _ => 0

abbrev bufTy : (tb : Table) → Fin (tcTables nBuf tb) → BufTy
  | .hbm, ⟨0, _⟩ => ⟨S1x128x1024x256, .f32⟩
  | .hbm, ⟨1, _⟩ => ⟨S1x128x128x8, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128x128x8, .f32⟩
  | .hbm, ⟨10, _⟩ => ⟨S8x128x128, .f32⟩
  | .hbm, ⟨11, _⟩ => ⟨S1x128x1024x256, .f32⟩
  | .local _ .vmem, ⟨0, _⟩ => ⟨S1x128x8x256, .f32⟩
  | .local _ .vmem, ⟨1, _⟩ => ⟨S1x128x8x256, .f32⟩
  | .local _ .vmem, ⟨2, _⟩ => ⟨S8x128x128, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1x128x8x256, .f32⟩
  | .local _ .vmem, ⟨11, _⟩ => ⟨S1x128x8x256, .f32⟩
  | _, _ => ⟨S1x128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1x128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1x128x128x8_S128x128x8 : S1x128x128x8.ShapeCasts S128x128x8
  transposes_S128x128x8_S8x128x128_2_0_1 : S128x128x8.Transposes [2, 0, 1] S8x128x128
  inb_S1x128x8x256_S1x128x8x256_0_0_0_0 : ∀ a, (![0, 0, 0, 0] : Fin 4 → Nat) a + S1x128x8x256.size a ≤ S1x128x8x256.size a
  h_S1x128x8x256 : 0 < S1x128x8x256.numel
  shapeCasts_S1x128x8x256_S128x8x256 : S1x128x8x256.ShapeCasts S128x8x256
  shapeCasts_S128x8x256_S1024x256 : S128x8x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S128x8x8x32 : S1024x256.ShapeCasts S128x8x8x32
  transposes_S128x8x8x32_p1_2_0_3_S8x8x128x32 : S128x8x8x32.Transposes [1, 2, 0, 3] S8x8x128x32
  shapeCasts_S8x8x128x32_S64x128x32 : S8x8x128x32.ShapeCasts S64x128x32
  shapeCasts_S64x128x128_S8x8x128x128 : S64x128x128.ShapeCasts S8x8x128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  shapeCasts_S8x128x128_S1x8x128x128 : S8x128x128.ShapeCasts S1x8x128x128
  broadcasts_S1x8x128x128_S8x8x128x128 : S1x8x128x128.Broadcasts S8x8x128x128
  reduces_S8x8x128x128_S8x8x128 : S8x8x128x128.Reduces [3] S8x8x128
  shapeCasts_S8x8x128_S8x8x128x1 : S8x8x128.ShapeCasts S8x8x128x1
  broadcasts_S8x8x128x1_S8x8x128x128 : S8x8x128x1.Broadcasts S8x8x128x128
  shapeCasts_S8x8x128x128_S64x128x128 : S8x8x128x128.ShapeCasts S64x128x128
  shapeCasts_S64x128x32_S8x8x128x32 : S64x128x32.ShapeCasts S8x8x128x32
  transposes_S8x8x128x32_p2_0_1_3_S128x8x8x32 : S8x8x128x32.Transposes [2, 0, 1, 3] S128x8x8x32
  shapeCasts_S128x8x8x32_S1024x256 : S128x8x8x32.ShapeCasts S1024x256
  shapeCasts_S1024x256_S128x8x256 : S1024x256.ShapeCasts S128x8x256
  shapeCasts_S128x8x256_S1x128x8x256 : S128x8x256.ShapeCasts S1x128x8x256
  dot_S1024x256_S256x256_S1024x256_1_0_0_1_n_n_wf : DotDims.WF S1024x256 S256x256 S1024x256 [1] [0] [0] [1] [] []
  dot_S64x128x32_S64x128x32_S64x128x128_2_2_1_1_0_0_wf : DotDims.WF S64x128x32 S64x128x32 S64x128x128 [2] [2] [1] [1] [0] [0]
  dot_S64x128x128_S64x128x32_S64x128x32_2_1_1_2_0_0_wf : DotDims.WF S64x128x128 S64x128x32 S64x128x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8x256.size a ≤ S1x128x1024x256.size a
  hwx0_0 : ∀ i : grid0.Coords, EltTy.bits .f32 = 32 ∨ (Rect.block (s := S1x128x1024x256) S1x128x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x128x128.size a
  hwx0_1 : ∀ i : grid0.Coords, EltTy.bits .f32 = 32 ∨ (Rect.block (s := S8x128x128) S8x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x8x256.size a ≤ S1x128x1024x256.size a
  hwx0_9 : ∀ i : grid0.Coords, EltTy.bits .f32 = 32 ∨ (Rect.block (s := S1x128x1024x256) S1x128x8x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S64x128x32_S64x128x32_S64x128x128_2_2_1_1_0_0 : DotDims S64x128x32 S64x128x32 S64x128x128 where
  lhsContracting := [2]
  rhsContracting := [2]
  lhsNonContracting := [1]
  rhsNonContracting := [1]
  lhsBatch := [0]
  rhsBatch := [0]
  wf := dot_S64x128x32_S64x128x32_S64x128x128_2_2_1_1_0_0_wf
def dot_S64x128x128_S64x128x32_S64x128x32_2_1_1_2_0_0 : DotDims S64x128x128 S64x128x32 S64x128x32 where
  lhsContracting := [2]
  rhsContracting := [1]
  lhsNonContracting := [1]
  rhsNonContracting := [2]
  lhsBatch := [0]
  rhsBatch := [0]
  wf := dot_S64x128x128_S64x128x32_S64x128x32_2_1_1_2_0_0_wf

abbrev win0_0 : Pipeline.Window sig grid0 :=
  Pipeline.Window.ofSpec (Memref.whole main_arg0) S1x128x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x128x8x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x128x1024x256 : Shape := ⟨4, ![1, 128, 1024, 256]⟩
abbrev S1x128x128x8 : Shape := ⟨4, ![1, 128, 128, 8]⟩
abbrev S256x256 : Shape := ⟨2, ![256, 256]⟩
abbrev S256 : Shape := ⟨1, ![256]⟩
abbrev S1x1024x128x256 : Shape := ⟨4, ![1, 1024, 128, 256]⟩
abbrev S1024x128x256 : Shape := ⟨3, ![1024, 128, 256]⟩
abbrev S1024x128x8x32 : Shape := ⟨4, ![1024, 128, 8, 32]⟩
abbrev S1024x8x128x32 : Shape := ⟨4, ![1024, 8, 128, 32]⟩
abbrev S8192x128x32 : Shape := ⟨3, ![8192, 128, 32]⟩
abbrev S_ : Shape := ⟨0, ![]⟩
abbrev S8192x128x128 : Shape := ⟨3, ![8192, 128, 128]⟩
abbrev S1x8x128x128 : Shape := ⟨4, ![1, 8, 128, 128]⟩
abbrev S8x128x128 : Shape := ⟨3, ![8, 128, 128]⟩
abbrev S1x8x1x128x1x128 : Shape := ⟨6, ![1, 8, 1, 128, 1, 128]⟩
abbrev S1024x8x1x128x1x128 : Shape := ⟨6, ![1024, 8, 1, 128, 1, 128]⟩
abbrev S8192x128 : Shape := ⟨2, ![8192, 128]⟩
abbrev S8192x128x1 : Shape := ⟨3, ![8192, 128, 1]⟩
abbrev S1x1x256 : Shape := ⟨3, ![1, 1, 256]⟩

abbrev nBuf : Space → Nat
  | .hbm => 73
  | .vmem => 0
  | .smem => 0
  | _ => 0

abbrev bufTy : (tb : Table) → Fin (tcTables nBuf tb) → BufTy
  | .hbm, ⟨0, _⟩ => ⟨S1x128x1024x256, .f32⟩
  | .hbm, ⟨1, _⟩ => ⟨S1x128x128x8, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x1024x128x256, .f32⟩
  | .hbm, ⟨10, _⟩ => ⟨S1024x128x256, .f32⟩
  | .hbm, ⟨11, _⟩ => ⟨S1024x128x256, .f32⟩
  | .hbm, ⟨12, _⟩ => ⟨S1024x128x256, .f32⟩
  | .hbm, ⟨13, _⟩ => ⟨S1024x128x256, .f32⟩
  | .hbm, ⟨14, _⟩ => ⟨S1024x128x8x32, .f32⟩
  | .hbm, ⟨15, _⟩ => ⟨S1024x8x128x32, .f32⟩
  | .hbm, ⟨16, _⟩ => ⟨S8192x128x32, .f32⟩
  | .hbm, ⟨17, _⟩ => ⟨S1024x128x8x32, .f32⟩
  | .hbm, ⟨18, _⟩ => ⟨S1024x8x128x32, .f32⟩
  | .hbm, ⟨19, _⟩ => ⟨S8192x128x32, .f32⟩
  | .hbm, ⟨20, _⟩ => ⟨S1024x128x8x32, .f32⟩
  | .hbm, ⟨21, _⟩ => ⟨S1024x8x128x32, .f32⟩
  | .hbm, ⟨22, _⟩ => ⟨S8192x128x32, .f32⟩
  | .hbm, ⟨23, _⟩ => ⟨S_, .f32⟩
  | .hbm, ⟨24, _⟩ => ⟨S8192x128x32, .f32⟩
  | .hbm, ⟨25, _⟩ => ⟨S8192x128x32, .f32⟩
  | .hbm, ⟨26, _⟩ => ⟨S8192x128x128, .f32⟩
  | .hbm, ⟨27, _⟩ => ⟨S1x8x128x128, .f32⟩
  | .hbm, ⟨28, _⟩ => ⟨S8x128x128, .f32⟩
  | .hbm, ⟨29, _⟩ => ⟨S1x8x1x128x1x128, .f32⟩
  | .hbm, ⟨30, _⟩ => ⟨S1024x8x1x128x1x128, .f32⟩
  | .hbm, ⟨31, _⟩ => ⟨S8192x128x128, .f32⟩
  | .hbm, ⟨32, _⟩ => ⟨S8192x128x128, .f32⟩
  | .hbm, ⟨33, _⟩ => ⟨S_, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S8192x128x1, .f32⟩
  | .hbm, ⟨39, _⟩ => ⟨S8192x128x128, .f32⟩
  | .hbm, ⟨40, _⟩ => ⟨S8192x128x128, .f32⟩
  | .hbm, ⟨41, _⟩ => ⟨S8192x128x128, .f32⟩
  | .hbm, ⟨42, _⟩ => ⟨S_, .f32⟩
  | .hbm, ⟨43, _⟩ => ⟨S8192x128, .f32⟩
  | .hbm, ⟨44, _⟩ => ⟨S8192x128x1, .f32⟩
  | .hbm, ⟨45, _⟩ => ⟨S8192x128x128, .f32⟩
  | .hbm, ⟨46, _⟩ => ⟨S8192x128x128, .f32⟩
  | .hbm, ⟨47, _⟩ => ⟨S8192x128x32, .f32⟩
  | .hbm, ⟨48, _⟩ => ⟨S1024x128x256, .f32⟩
  | .hbm, ⟨49, _⟩ => ⟨S1x1x256, .f32⟩
  | .hbm, ⟨50, _⟩ => ⟨S1024x128x256, .f32⟩
  | .hbm, ⟨51, _⟩ => ⟨S1024x128x256, .f32⟩
  | .hbm, ⟨52, _⟩ => ⟨S1024x128x256, .f32⟩
  | .hbm, ⟨53, _⟩ => ⟨S1024x128x256, .f32⟩
  | .hbm, ⟨54, _⟩ => ⟨S_, .f32⟩
  | .hbm, ⟨55, _⟩ => ⟨S1024x128x256, .f32⟩
  | .hbm, ⟨56, _⟩ => ⟨S1024x128x256, .f32⟩
  | .hbm, ⟨57, _⟩ => ⟨S_, .f32⟩
  | .hbm, ⟨58, _⟩ => ⟨S1024x128x256, .f32⟩
  | .hbm, ⟨59, _⟩ => ⟨S1024x128x256, .f32⟩
  | .hbm, ⟨60, _⟩ => ⟨S1024x128x8x32, .f32⟩
  | .hbm, ⟨61, _⟩ => ⟨S1024x8x128x32, .f32⟩
  | .hbm, ⟨62, _⟩ => ⟨S8192x128x32, .f32⟩
  | .hbm, ⟨63, _⟩ => ⟨S8192x128x32, .f32⟩
  | .hbm, ⟨64, _⟩ => ⟨S1024x8x128x32, .f32⟩
  | .hbm, ⟨65, _⟩ => ⟨S1024x128x8x32, .f32⟩
  | .hbm, ⟨66, _⟩ => ⟨S1024x128x256, .f32⟩
  | .hbm, ⟨67, _⟩ => ⟨S1024x128x256, .f32⟩
  | .hbm, ⟨68, _⟩ => ⟨S1x1x256, .f32⟩
  | .hbm, ⟨69, _⟩ => ⟨S1024x128x256, .f32⟩
  | .hbm, ⟨70, _⟩ => ⟨S1024x128x256, .f32⟩
  | .hbm, ⟨71, _⟩ => ⟨S1x1024x128x256, .f32⟩
  | .hbm, ⟨72, _⟩ => ⟨S1x128x1024x256, .f32⟩
  | _, _ => ⟨S1x128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]

class Facts₀ : Prop where
  transposes_S1x128x1024x256_S1x1024x128x256_0_2_1_3 : S1x128x1024x256.Transposes [0, 2, 1, 3] S1x1024x128x256
  shapeCasts_S1x1024x128x256_S1024x128x256 : S1x1024x128x256.ShapeCasts S1024x128x256
  shapeCasts_S1024x128x256_S1024x128x8x32 : S1024x128x256.ShapeCasts S1024x128x8x32
  transposes_S1024x128x8x32_S1024x8x128x32_0_2_1_3 : S1024x128x8x32.Transposes [0, 2, 1, 3] S1024x8x128x32
  shapeCasts_S1024x8x128x32_S8192x128x32 : S1024x8x128x32.ShapeCasts S8192x128x32
  bcast_S_S8192x128x32 : S_.BroadcastsInDim S8192x128x32 (![] : Fin 0 → Fin S8192x128x32.rank)
  transposes_S1x128x128x8_S1x8x128x128_0_3_1_2 : S1x128x128x8.Transposes [0, 3, 1, 2] S1x8x128x128
  shapeCasts_S1x8x128x128_S8x128x128 : S1x8x128x128.ShapeCasts S8x128x128
  shapeCasts_S8x128x128_S1x8x1x128x1x128 : S8x128x128.ShapeCasts S1x8x1x128x1x128
  bcast_S1x8x1x128x1x128_S1024x8x1x128x1x128_0_1_2_3_4_5 : S1x8x1x128x1x128.BroadcastsInDim S1024x8x1x128x1x128 (![0, 1, 2, 3, 4, 5] : Fin 6 → Fin S1024x8x1x128x1x128.rank)
  shapeCasts_S1024x8x1x128x1x128_S8192x128x128 : S1024x8x1x128x1x128.ShapeCasts S8192x128x128
  reducesTo_S8192x128x128_S8192x128_d2 : S8192x128x128.ReducesTo [2] S8192x128
  h_S_ : 0 < S_.numel
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  bcast_S8192x128x1_S8192x128x128_0_1_2 : S8192x128x1.BroadcastsInDim S8192x128x128 (![0, 1, 2] : Fin 3 → Fin S8192x128x128.rank)
  bcast_S256_S1x1x256_2 : S256.BroadcastsInDim S1x1x256 (![2] : Fin 1 → Fin S1x1x256.rank)
  bcast_S1x1x256_S1024x128x256_0_1_2 : S1x1x256.BroadcastsInDim S1024x128x256 (![0, 1, 2] : Fin 3 → Fin S1024x128x256.rank)
  bcast_S_S1024x128x256 : S_.BroadcastsInDim S1024x128x256 (![] : Fin 0 → Fin S1024x128x256.rank)
  shapeCasts_S8192x128x32_S1024x8x128x32 : S8192x128x32.ShapeCasts S1024x8x128x32
  transposes_S1024x8x128x32_S1024x128x8x32_0_2_1_3 : S1024x8x128x32.Transposes [0, 2, 1, 3] S1024x128x8x32
  shapeCasts_S1024x128x8x32_S1024x128x256 : S1024x128x8x32.ShapeCasts S1024x128x256
  shapeCasts_S1024x128x256_S1x1024x128x256 : S1024x128x256.ShapeCasts S1x1024x128x256
  transposes_S1x1024x128x256_S1x128x1024x256_0_2_1_3 : S1x1024x128x256.Transposes [0, 2, 1, 3] S1x128x1024x256
  dot_S1024x128x256_S256x256_S1024x128x256_2_1_01_0_n_n_wf : DotDims.WF S1024x128x256 S256x256 S1024x128x256 [2] [1] [0, 1] [0] [] []
  dot_S8192x128x32_S8192x128x32_S8192x128x128_2_2_1_1_0_0_wf : DotDims.WF S8192x128x32 S8192x128x32 S8192x128x128 [2] [2] [1] [1] [0] [0]
  dot_S8192x128x128_S8192x128x32_S8192x128x32_2_1_1_2_0_0_wf : DotDims.WF S8192x128x128 S8192x128x32 S8192x128x32 [2] [1] [1] [2] [0] [0]

variable [Facts₀]

def dot_S1024x128x256_S256x256_S1024x128x256_2_1_01_0_n_n : DotDims S1024x128x256 S256x256 S1024x128x256 where
  lhsContracting := [2]
  rhsContracting := [1]
  lhsNonContracting := [0, 1]
  rhsNonContracting := [0]
  lhsBatch := []
  rhsBatch := []
  wf := dot_S1024x128x256_S256x256_S1024x128x256_2_1_01_0_n_n_wf
def dot_S8192x128x32_S8192x128x32_S8192x128x128_2_2_1_1_0_0 : DotDims S8192x128x32 S8192x128x32 S8192x128x128 where
  lhsContracting := [2]
  rhsContracting := [2]
  lhsNonContracting := [1]
  rhsNonContracting := [1]
  lhsBatch := [0]
  rhsBatch := [0]
  wf := dot_S8192x128x32_S8192x128x32_S8192x128x128_2_2_1_1_0_0_wf
def dot_S8192x128x128_S8192x128x32_S8192x128x32_2_1_1_2_0_0 : DotDims S8192x128x128 S8192x128x32 S8192x128x32 where
  lhsContracting := [2]
  rhsContracting := [1]
  lhsNonContracting := [1]
  rhsNonContracting := [2]
  lhsBatch := [0]
  rhsBatch := [0]
  wf := dot_S8192x128x128_S8192x128x32_S8192x128x32_2_1_1_2_0_0_wf

class Facts : Prop extends Facts₀ where

variable [Facts]
-- ==== Proof.Spec.lean ====
/-
  The specification: gated attention along the axis of 128 tokens, for ONE position.

  For one position the input is a 128 × 256 array X (token t, channel c).  With the four projection matrices
  Wq, Wk, Wv, Wg (each 256 × 256, indexed (output feature, channel)) put
      Q t j = ∑ c, X t c · Wq j c      (and K, V, G alike),
  split the 256 features into 8 heads of 32 (feature j = 32·h + d), and for head h
      logit h t t' = ∑ d, (Q t (32h+d) · scale) · K t' (32h+d) + B h t t',
      soft         = the softmax of a row of logits over t' (shifted by the row's maximum),
      att h t d    = ∑ t', soft (logit h t ·) t' · V t' (32h+d),
      gate t j     = 1 / (1 + e^{-(G t j + bg j)}),
      out t c      = ∑ j, (gate t j · att (j / 32) t (j mod 32)) · Wo c j + bo c.
  Everything is over the extended reals with the exact operations; the two float literals (the scale 1/√32 as
  rounded to f32, and −∞, the value a row's maximum is folded from) are kept as their words and never evaluated.
-/
import Idealize.ShloMosaic.PureOps.Ideal
import Idealize.ShloMosaic.PureOps.Ideal.Laws

noncomputable section

namespace Axial

open Idealize.ShloMosaic

/-- One position's tokens: token `t`, channel `c`. -/
abbrev Rows := Fin 128 → Fin 256 → EReal
/-- A 256 × 256 weight matrix, indexed (output feature, input feature). -/
abbrev Mat := Fin 256 → Fin 256 → EReal
/-- The attention bias: head, query token, key token. -/
abbrev Bias := Fin 8 → Fin 128 → Fin 128 → EReal

/-- A linear projection of every token: `(proj X W) t j = ∑ c, X t c · W j c`. -/
def proj (X : Rows) (W : Mat) : Rows := fun t j => ∑ c : Fin 256, X t c * W j c

/-- Feature `32·h + d`: coordinate `d` of head `h`. -/
def hd (h : Fin 8) (d : Fin 32) : Fin 256 := ⟨h.val * 32 + d.val, by omega⟩
/-- The head a feature belongs to. -/
def hOf (j : Fin 256) : Fin 8 := ⟨j.val / 32, by omega⟩
/-- A feature's coordinate inside its head. -/
def dOf (j : Fin 256) : Fin 32 := ⟨j.val % 32, by omega⟩

theorem hd_hOf_dOf (j : Fin 256) : hd (hOf j) (dOf j) = j := Fin.ext (by simp only [hd, hOf, dOf]; omega)
theorem hOf_hd (h : Fin 8) (d : Fin 32) : hOf (hd h d) = h := Fin.ext (by simp only [hd, hOf]; omega)
theorem dOf_hd (h : Fin 8) (d : Fin 32) : dOf (hd h d) = d := Fin.ext (by simp only [hd, dOf]; omega)

/-- Row `8·t + s'` of a tile of 8 positions laid out token-major: token `t`, position `s'` of the tile. -/
def row (t : Fin 128) (s' : Fin 8) : Fin 1024 := ⟨t.val * 8 + s'.val, by omega⟩
/-- Batch entry `8·s' + h` of a tile: position `s'` of the tile, head `h`. -/
def tile (s' : Fin 8) (h : Fin 8) : Fin 64 := ⟨s'.val * 8 + h.val, by omega⟩
/-- Batch entry `8·s + h` of the whole array: position `s`, head `h`. -/
def batch (s : Fin 1024) (h : Fin 8) : Fin 8192 := ⟨s.val * 8 + h.val, by omega⟩

/-- The query scale, 1/√32 as the f32 word both programs multiply by. -/
def scale : EReal := Ideal.ofBits .f32 0x3E3504F3#32
/-- The word a row's maximum is folded from (−∞). -/
def negInf : EReal := Ideal.ofBits .f32 0xFF800000#32

/-- The attention logits of head `h`: scaled query · key over the head's 32 coordinates, plus the bias. -/
def logit (Q K : Rows) (B : Bias) (h : Fin 8) (t t' : Fin 128) : EReal :=
  (∑ d : Fin 32, (Q t (hd h d) * scale) * K t' (hd h d)) + B h t t'

/-- A row's maximum, folded from `negInf`. -/
def rowmax (L : Fin 128 → EReal) : EReal := (Finset.univ : Finset (Fin 128)).fold max negInf L

/-- The softmax of a row: `e^{L t' − max L} / ∑ u, e^{L u − max L}`. -/
def soft (L : Fin 128 → EReal) (t' : Fin 128) : EReal :=
  Ideal.div (Ideal.exp (L t' - rowmax L)) (∑ u : Fin 128, Ideal.exp (L u - rowmax L))

/-- Head `h`'s attention output for query token `t`, coordinate `d`. -/
def att (Q K V : Rows) (B : Bias) (h : Fin 8) (t : Fin 128) (d : Fin 32) : EReal :=
  ∑ t' : Fin 128, soft (logit Q K B h t) t' * V t' (hd h d)

/-- The gate: the logistic function of the gate projection plus its bias. -/
def gate (G : Rows) (bg : Fin 256 → EReal) (t : Fin 128) (j : Fin 256) : EReal := Ideal.logistic (G t j + bg j)

/-- The unit's output for one position. -/
def out (X : Rows) (B : Bias) (Wq Wk Wv Wg : Mat) (bg : Fin 256 → EReal) (Wo : Mat) (bo : Fin 256 → EReal)
    (t : Fin 128) (c : Fin 256) : EReal :=
  (∑ j : Fin 256, (gate (proj X Wg) bg t j * att (proj X Wq) (proj X Wk) (proj X Wv) B (hOf j) t (dOf j)) * Wo c j) + bo c

/-- Folding a maximum from `a` and then taking the maximum with `a` again changes nothing. -/
theorem max_fold_self {ι : Type*} (s : Finset ι) (a : EReal) (f : ι → EReal) : max a (s.fold max a f) = s.fold max a f :=
  max_eq_right ((Finset.le_fold_max a).2 (Or.inl le_rfl))

end Axial

end
-- ==== Proof.KerDefs.lean ====
/-
  How the kernel's loaded blocks are read as the specification's arguments: position `s'` of a tile of 8 positions
  of the input block gives that position's tokens; a weight block is a matrix indexed (output feature, channel).
-/
import proofs.«125228_j68143951119084_2_alg».proof.Proof.Gen.KernelIdeal
import proofs.«125228_j68143951119084_2_alg».proof.Proof.Spec
import Idealize.ShloMosaic.Lib.ValueIdx

noncomputable section

namespace Cert.KernelIdeal.AxialK

open Cert.KernelIdeal Idealize.ShloMosaic Idealize.ShloMosaic.ValueIdx Axial

/-- Position `s'` of the input block: its 128 tokens of 256 channels. -/
def Xs (x0 : Vec Ideal S1x128x8x256 .f32) (s' : Fin 8) : Rows := fun t c => x0 (ix4 (0 : Fin 1) t s' c)
/-- A 256 × 256 weight block as a matrix. -/
def M (w : Vec Ideal S256x256 .f32) : Mat := fun j c => w (ix2 j c)

end Cert.KernelIdeal.AxialK

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.KerProj.lean ====
/-
  The kernel's three intermediate values read at an index: the gate pre-activation, the value projection laid out
  per (position, head), and the scaled query · key products per (position, head).
-/
import proofs.«125228_j68143951119084_2_alg».proof.Proof.Gen.KernelIdeal.Skeleton
import proofs.«125228_j68143951119084_2_alg».proof.Proof.KerDefs
import proofs.«125228_j68143951119084_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AxialK

open Cert.KernelIdeal Cert.KernelIdeal.Gen Idealize.ShloMosaic Idealize.ShloMosaic.ValueIdx Axial

/-- The input block cast to 1024 rows of 256 channels: row 8·t + s' holds token t of position s'. -/
private theorem pay2_apply (x0 : Vec Ideal S1x128x8x256 .f32) (t : Fin 128) (s' : Fin 8) (c : Fin 256) :
    k0_pay2 (F := Ideal) x0 (ix2 (row t s') c) = x0 (ix4 (0 : Fin 1) t s' c) := by
  unfold k0_pay2
  show shapeCast S1024x256 (shapeCast S128x8x256 x0 _) _ (ix2 (row t s') c) = _
  refine (shapeCast_apply _ _ _ (ix3 t s' c) ?_).trans ?_
  · rw [Shape.rowMajor_val_three, Shape.rowMajor_val_two]
    show (t.val * 8 + s'.val) * 256 + c.val = (t.val * 8 + s'.val) * 256 + c.val
    rfl
  · exact shapeCast_1abc_abc_apply x0 _ t s' c

private theorem projD_l0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem projD_l1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem projD_r0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem projD_r1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- One projection: the rows times a transposed weight block, into the zero accumulator. -/
private theorem projK (x0 : Vec Ideal S1x128x8x256 .f32) (W : Vec Ideal S256x256 .f32) (t : Fin 128) (s' : Fin 8) (j : Fin 256) :
    matmul dot_S1024x256_S256x256_S1024x256_1_0_0_1_n_n none (k0_pay2 (F := Ideal) x0)
        (transpose S256x256 [1, 0] (truncf .bf16 W Facts₀.bitsLt_bf16_f32) Facts₀.transposes_S256x256_p1_0_S256x256)
        (constant S1024x256 .f32 0x00000000#32) (ix2 (row t s') j)
      = proj (Xs x0 s') (M W) t j := by
  refine (Cert.LibDot.matmul_zero_apply dot_S1024x256_S256x256_S1024x256_1_0_0_1_n_n rfl rfl projD_l0 projD_l1 projD_r0 projD_r1 none _ _ (row t s') j).trans ?_
  unfold proj
  refine Finset.sum_congr rfl fun c _ => ?_
  rw [pay2_apply, transpose_ix2_apply]
  rfl

section Layout
variable {α : Type}

/-- 1024 rows of 256 features cast to (token, position, head, coordinate): row 8·t + s', feature 32·h + d. -/
private theorem cast_heads_apply (y : S1024x256.Idx → α) (t : Fin 128) (s' : Fin 8) (h : Fin 8) (d : Fin 32) :
    shapeCast S128x8x8x32 y Facts₀.shapeCasts_S1024x256_S128x8x8x32 (ix4 t s' h d) = y (ix2 (row t s') (hd h d)) :=
  shapeCast_apply y _ _ (ix2 (row t s') (hd h d)) (by
    rw [Shape.rowMajor_val_two, Shape.rowMajor_val_four]
    show (t.val * 8 + s'.val) * 256 + (h.val * 32 + d.val) = ((t.val * 8 + s'.val) * 8 + h.val) * 32 + d.val
    omega)

/-- The transpose to (position, head, token, coordinate). -/
private theorem transpose_heads_apply (y : S128x8x8x32.Idx → α) (t : Fin 128) (s' : Fin 8) (h : Fin 8) (d : Fin 32) :
    transpose S8x8x128x32 [1, 2, 0, 3] y Facts₀.transposes_S128x8x8x32_p1_2_0_3_S8x8x128x32 (ix4 s' h t d) = y (ix4 t s' h d) :=
  transpose_apply _ y _ _ _ fun b => match b with
    | ⟨0, _⟩ => rfl
    | ⟨1, _⟩ => rfl
    | ⟨2, _⟩ => rfl
    | ⟨3, _⟩ => rfl

/-- (position, head) merged into the batch entry 8·s' + h. -/
private theorem cast_tile_apply (y : S8x8x128x32.Idx → α) (s' : Fin 8) (h : Fin 8) (t : Fin 128) (d : Fin 32) :
    shapeCast S64x128x32 y Facts₀.shapeCasts_S8x8x128x32_S64x128x32 (ix3 (tile s' h) t d) = y (ix4 s' h t d) :=
  shapeCast_apply y _ _ (ix4 s' h t d) (by
    rw [Shape.rowMajor_val_four, Shape.rowMajor_val_three]
    show ((s'.val * 8 + h.val) * 128 + t.val) * 32 + d.val = ((s'.val * 8 + h.val) * 128 + t.val) * 32 + d.val
    rfl)

/-- The three layout steps together: batch entry 8·s' + h, token t, coordinate d reads row 8·t + s', feature 32·h + d. -/
private theorem to_tile_apply (y : S1024x256.Idx → α) (s' : Fin 8) (h : Fin 8) (t : Fin 128) (d : Fin 32) :
    shapeCast S64x128x32
        (transpose S8x8x128x32 [1, 2, 0, 3] (shapeCast S128x8x8x32 y Facts₀.shapeCasts_S1024x256_S128x8x8x32)
          Facts₀.transposes_S128x8x8x32_p1_2_0_3_S8x8x128x32)
        Facts₀.shapeCasts_S8x8x128x32_S64x128x32 (ix3 (tile s' h) t d)
      = y (ix2 (row t s') (hd h d)) :=
  (cast_tile_apply _ s' h t d).trans ((transpose_heads_apply _ t s' h d).trans (cast_heads_apply y t s' h d))

/-- A vector of 256 features as one row, repeated over the 1024 rows. -/
private theorem bias_row_apply (b : S256.Idx → α) (r : Fin 1024) (j : Fin 256) :
    broadcastTo S1024x256 (shapeCast S1x256 b Facts₀.shapeCasts_S256_S1x256) Facts₀.broadcasts_S1x256_S1024x256 (ix2 r j) = b (ix1 j) :=
  (broadcastTo_1b_ab_apply _ _ r j).trans (shapeCast_a_1a_apply b _ (0 : Fin 1) j)

end Layout

private theorem qkD_l0 (i : S64x128x128.Idx) (q : dot_S64x128x32_S64x128x32_S64x128x128_2_2_1_1_0_0.contr.Idx) :
    (dot_S64x128x32_S64x128x32_S64x128x128_2_2_1_1_0_0.lhsIdx i q 0).val = (i 0).val := by
  unfold DotDims.lhsIdx
  rw [dif_pos (show (0 : Fin S64x128x32.rank) ∈ dot_S64x128x32_S64x128x32_S64x128x128_2_2_1_1_0_0.lhsBatch by decide)]
  rfl
private theorem qkD_l1 (i : S64x128x128.Idx) (q : dot_S64x128x32_S64x128x32_S64x128x128_2_2_1_1_0_0.contr.Idx) :
    (dot_S64x128x32_S64x128x32_S64x128x128_2_2_1_1_0_0.lhsIdx i q 1).val = (i 1).val := by
  unfold DotDims.lhsIdx
  rw [dif_neg (show ¬(1 : Fin S64x128x32.rank) ∈ dot_S64x128x32_S64x128x32_S64x128x128_2_2_1_1_0_0.lhsBatch by decide), dif_pos (show (1 : Fin S64x128x32.rank) ∈ dot_S64x128x32_S64x128x32_S64x128x128_2_2_1_1_0_0.lhsNonContracting by decide)]
  rfl
private theorem qkD_l2 (i : S64x128x128.Idx) (q : dot_S64x128x32_S64x128x32_S64x128x128_2_2_1_1_0_0.contr.Idx) :
    (dot_S64x128x32_S64x128x32_S64x128x128_2_2_1_1_0_0.lhsIdx i q 2).val = (q ⟨0, by decide⟩).val :=
  dot_S64x128x32_S64x128x32_S64x128x128_2_2_1_1_0_0.lhsIdx_val_of_single rfl i q
private theorem qkD_r0 (i : S64x128x128.Idx) (q : dot_S64x128x32_S64x128x32_S64x128x128_2_2_1_1_0_0.contr.Idx) :
    (dot_S64x128x32_S64x128x32_S64x128x128_2_2_1_1_0_0.rhsIdx i q 0).val = (i 0).val := by
  unfold DotDims.rhsIdx
  rw [dif_pos (show (0 : Fin S64x128x32.rank) ∈ dot_S64x128x32_S64x128x32_S64x128x128_2_2_1_1_0_0.rhsBatch by decide)]
  rfl
private theorem qkD_r1 (i : S64x128x128.Idx) (q : dot_S64x128x32_S64x128x32_S64x128x128_2_2_1_1_0_0.contr.Idx) :
    (dot_S64x128x32_S64x128x32_S64x128x128_2_2_1_1_0_0.rhsIdx i q 1).val = (i 2).val := by
  unfold DotDims.rhsIdx
  rw [dif_neg (show ¬(1 : Fin S64x128x32.rank) ∈ dot_S64x128x32_S64x128x32_S64x128x128_2_2_1_1_0_0.rhsBatch by decide), dif_pos (show (1 : Fin S64x128x32.rank) ∈ dot_S64x128x32_S64x128x32_S64x128x128_2_2_1_1_0_0.rhsNonContracting by decide)]
  rfl
private theorem qkD_r2 (i : S64x128x128.Idx) (q : dot_S64x128x32_S64x128x32_S64x128x128_2_2_1_1_0_0.contr.Idx) :
    (dot_S64x128x32_S64x128x32_S64x128x128_2_2_1_1_0_0.rhsIdx i q 2).val = (q ⟨0, by decide⟩).val :=
  dot_S64x128x32_S64x128x32_S64x128x128_2_2_1_1_0_0.rhsIdx_val_of_single rfl i q

/-- The batched product over the last axis of both operands, into the zero accumulator, at (batch entry, t, u). -/
private theorem qk_apply {φ₁ φ₂ : FTy} (Lq : FVec Ideal S64x128x32 φ₁) (Rk : FVec Ideal S64x128x32 φ₂) (b : Fin 64) (t u : Fin 128) :
    matmul dot_S64x128x32_S64x128x32_S64x128x128_2_2_1_1_0_0 none Lq Rk (constant S64x128x128 .f32 0x00000000#32) (ix3 b t u)
      = ∑ d : Fin 32, Lq (ix3 b t d) * Rk (ix3 b u d) := by
  refine (Ideal.matmul_constant_zero_apply dot_S64x128x32_S64x128x32_S64x128x128_2_2_1_1_0_0 none Lq Rk (ix3 b t u)).trans ?_
  rw [← Equiv.sum_comp (contrEquiv1 dot_S64x128x32_S64x128x32_S64x128x128_2_2_1_1_0_0 32 rfl rfl).symm]
  refine Finset.sum_congr rfl fun k _ => ?_
  have hk := contrEquiv1_symm_val dot_S64x128x32_S64x128x32_S64x128x128_2_2_1_1_0_0 32 rfl rfl k
  have el : dot_S64x128x32_S64x128x32_S64x128x128_2_2_1_1_0_0.lhsIdx (ix3 b t u) ((contrEquiv1 dot_S64x128x32_S64x128x32_S64x128x128_2_2_1_1_0_0 32 rfl rfl).symm k) = ix3 b t k := funext fun a => Fin.ext (by
    match a with
    | ⟨0, _⟩ => exact qkD_l0 _ _
    | ⟨1, _⟩ => exact qkD_l1 _ _
    | ⟨2, _⟩ => exact (qkD_l2 _ _).trans hk)
  have er : dot_S64x128x32_S64x128x32_S64x128x128_2_2_1_1_0_0.rhsIdx (ix3 b t u) ((contrEquiv1 dot_S64x128x32_S64x128x32_S64x128x128_2_2_1_1_0_0 32 rfl rfl).symm k) = ix3 b u k := funext fun a => Fin.ext (by
    match a with
    | ⟨0, _⟩ => exact qkD_r0 _ _
    | ⟨1, _⟩ => exact qkD_r1 _ _
    | ⟨2, _⟩ => exact (qkD_r2 _ _).trans hk)
  rw [el, er]

/-- The gate pre-activation at (token, position, head, coordinate): the gate projection plus its bias. -/
theorem pay3_apply (x0 : Vec Ideal S1x128x8x256 .f32) (x5 : Vec Ideal S256x256 .f32) (x6 : Vec Ideal S256 .f32)
    (t : Fin 128) (s' : Fin 8) (h : Fin 8) (d : Fin 32) :
    k0_pay3 (F := Ideal) x0 x5 x6 (ix4 t s' h d) = proj (Xs x0 s') (M x5) t (hd h d) + x6 (ix1 (hd h d)) := by
  unfold k0_pay3
  dsimp only
  refine (cast_heads_apply _ t s' h d).trans ?_
  rw [addf_apply, projK, bias_row_apply]

/-- The value projection at (batch entry 8·s' + h, token, coordinate). -/
theorem pay4_apply (x0 : Vec Ideal S1x128x8x256 .f32) (x4 : Vec Ideal S256x256 .f32)
    (s' : Fin 8) (h : Fin 8) (t' : Fin 128) (d : Fin 32) :
    k0_pay4 (F := Ideal) x0 x4 (ix3 (tile s' h) t' d) = proj (Xs x0 s') (M x4) t' (hd h d) := by
  unfold k0_pay4
  dsimp only
  rw [truncf_apply]
  refine (to_tile_apply _ s' h t' d).trans ?_
  exact projK x0 x4 t' s' (hd h d)

/-- The scaled query · key product at (batch entry 8·s' + h, query token, key token). -/
theorem pay5_apply (x0 : Vec Ideal S1x128x8x256 .f32) (x2 x3 : Vec Ideal S256x256 .f32)
    (s' : Fin 8) (h : Fin 8) (t u : Fin 128) :
    k0_pay5 (F := Ideal) x0 x2 x3 (ix3 (tile s' h) t u)
      = ∑ d : Fin 32, (proj (Xs x0 s') (M x2) t (hd h d) * scale) * proj (Xs x0 s') (M x3) u (hd h d) := by
  unfold k0_pay5
  dsimp only
  refine (qk_apply _ _ (tile s' h) t u).trans ?_
  refine Finset.sum_congr rfl fun d _ => ?_
  rw [truncf_apply, truncf_apply]
  congr 1
  · refine (cast_tile_apply _ s' h t d).trans ?_
    refine (transpose_heads_apply _ t s' h d).trans ?_
    rw [mulf_apply, broadcast_apply]
    congr 1
    exact (cast_heads_apply _ t s' h d).trans (projK x0 x2 t s' (hd h d))
  · exact (to_tile_apply _ s' h u d).trans (projK x0 x3 u s' (hd h d))

end Cert.KernelIdeal.AxialK

end
-- ==== Proof.KerAttn.lean ====
/-
  The kernel's stored value read at an index, in terms of its three intermediate values: softmax over the key
  tokens of (products + bias), the weighted sum of values, the gate, and the output projection with its bias.
-/
import proofs.«125228_j68143951119084_2_alg».proof.Proof.Gen.KernelIdeal.Skeleton
import proofs.«125228_j68143951119084_2_alg».proof.Proof.Spec
import proofs.«125228_j68143951119084_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AxialK

open Cert.KernelIdeal Cert.KernelIdeal.Gen Idealize.ShloMosaic Idealize.ShloMosaic.ValueIdx Axial

/-! ## Layout operations of this kernel read at an index -/

/-- The [64,128,128] array seen as [8,8,128,128]: entry (s', h) of the tile is batch entry 8·s' + h. -/
private theorem cast_64_88 {α : Type} (x : S64x128x128.Idx → α) (h : S64x128x128.ShapeCasts S8x8x128x128)
    (s' hh : Fin 8) (t u : Fin 128) :
    shapeCast S8x8x128x128 x h (ix4 s' hh t u) = x (ix3 (tile s' hh) t u) :=
  shapeCast_apply x h _ _ (by
    rw [Shape.rowMajor_val_three, Shape.rowMajor_val_four]
    show ((s'.val * 8 + hh.val) * 128 + t.val) * 128 + u.val = ((s'.val * 8 + hh.val) * 128 + t.val) * 128 + u.val
    rfl)

/-- The [8,8,128,128] array seen as [64,128,128], read at batch entry 8·s' + h. -/
private theorem cast_88_64 {α : Type} (x : S8x8x128x128.Idx → α) (h : S8x8x128x128.ShapeCasts S64x128x128)
    (s' hh : Fin 8) (t u : Fin 128) :
    shapeCast S64x128x128 x h (ix3 (tile s' hh) t u) = x (ix4 s' hh t u) :=
  shapeCast_apply x h _ _ (by
    rw [Shape.rowMajor_val_three, Shape.rowMajor_val_four]
    show ((s'.val * 8 + hh.val) * 128 + t.val) * 128 + u.val = ((s'.val * 8 + hh.val) * 128 + t.val) * 128 + u.val
    rfl)

/-- The [64,128,32] array seen as [8,8,128,32]. -/
private theorem cast_64_88d {α : Type} (x : S64x128x32.Idx → α) (h : S64x128x32.ShapeCasts S8x8x128x32)
    (s' hh : Fin 8) (t : Fin 128) (d : Fin 32) :
    shapeCast S8x8x128x32 x h (ix4 s' hh t d) = x (ix3 (tile s' hh) t d) :=
  shapeCast_apply x h _ _ (by
    rw [Shape.rowMajor_val_three, Shape.rowMajor_val_four]
    show ((s'.val * 8 + hh.val) * 128 + t.val) * 32 + d.val = ((s'.val * 8 + hh.val) * 128 + t.val) * 32 + d.val
    rfl)

/-- The bias [1,8,128,128] repeated along the leading axis of 8 positions. -/
private theorem bcast_lead {α : Type} (x : S1x8x128x128.Idx → α) (h : S1x8x128x128.Broadcasts S8x8x128x128)
    (s' hh : Fin 8) (t u : Fin 128) :
    broadcastTo S8x8x128x128 x h (ix4 s' hh t u) = x (ix4 (0 : Fin 1) hh t u) :=
  broadcastTo_apply x h _ _ fun a => by
    match a with
    | ⟨0, _⟩ => rfl
    | ⟨1, _⟩ => rfl
    | ⟨2, _⟩ => rfl
    | ⟨3, _⟩ => rfl

/-- A row statistic [8,8,128] given a trailing unit axis. -/
private theorem keep_cast {α : Type} (x : S8x8x128.Idx → α) (h : S8x8x128.ShapeCasts S8x8x128x1)
    (s' hh : Fin 8) (t : Fin 128) (z : Fin 1) :
    shapeCast S8x8x128x1 x h (ix4 s' hh t z) = x (ix3 s' hh t) :=
  shapeCast_apply x h _ _ (by
    have hz : z.val = 0 := by omega
    rw [Shape.rowMajor_val_three, Shape.rowMajor_val_four]
    show (s'.val * 8 + hh.val) * 128 + t.val = ((s'.val * 8 + hh.val) * 128 + t.val) * 1 + z.val
    omega)

/-- The trailing unit axis repeated over the 128 key tokens. -/
private theorem bcast_last {α : Type} (x : S8x8x128x1.Idx → α) (h : S8x8x128x1.Broadcasts S8x8x128x128)
    (s' hh : Fin 8) (t u : Fin 128) :
    broadcastTo S8x8x128x128 x h (ix4 s' hh t u) = x (ix4 s' hh t (0 : Fin 1)) :=
  broadcastTo_apply x h _ _ fun a => by
    match a with
    | ⟨0, _⟩ => rfl
    | ⟨1, _⟩ => rfl
    | ⟨2, _⟩ => rfl
    | ⟨3, _⟩ => rfl

/-- A row statistic read back over the key tokens. -/
private theorem keep_bcast {α : Type} (x : S8x8x128.Idx → α) (hc : S8x8x128.ShapeCasts S8x8x128x1)
    (hb : S8x8x128x1.Broadcasts S8x8x128x128) (s' hh : Fin 8) (t u : Fin 128) :
    broadcastTo S8x8x128x128 (shapeCast S8x8x128x1 x hc) hb (ix4 s' hh t u) = x (ix3 s' hh t) :=
  (bcast_last _ hb s' hh t u).trans (keep_cast x hc s' hh t 0)

/-- The index over (s', h, t) with key token u inserted on the reduced axis. -/
private theorem lift_eq (h : S8x8x128x128.Reduces [3] S8x8x128) (s' hh : Fin 8) (t u : Fin 128) :
    h.lift (ix3 s' hh t) u = ix4 s' hh t u := by
  funext a
  refine Fin.ext ?_
  match a with
  | ⟨0, _⟩ => rfl
  | ⟨1, _⟩ => rfl
  | ⟨2, _⟩ => rfl
  | ⟨3, _⟩ => rfl

/-- The maximum over the key tokens is the row's maximum. -/
private theorem redmax_apply (x : FVec Ideal S8x8x128x128 .f32) (h : S8x8x128x128.Reduces [3] S8x8x128)
    (hφ : FKind.Formats .f32) (hacc : (0xFF800000#32 : BitVec 32) = FKind.maximumf.neutral .f32 hφ)
    (s' hh : Fin 8) (t : Fin 128) :
    multiReduction (F := Ideal) .maximumf [3] S8x8x128 x 0xFF800000#32 h hφ hacc (ix3 s' hh t)
      = rowmax (fun u => x (ix4 s' hh t u)) := by
  refine (Ideal.multiReduction_maximumf_single x _ h hφ hacc (ix3 s' hh t)).trans ?_
  unfold rowmax negInf
  refine congrArg (fun f => (Finset.univ : Finset (Fin 128)).fold max (Ideal.ofBits .f32 0xFF800000#32) f) ?_
  funext u
  exact congrArg x (lift_eq h s' hh t u)

/-- The sum over the key tokens. -/
private theorem redsum_apply (x : FVec Ideal S8x8x128x128 .f32) (h : S8x8x128x128.Reduces [3] S8x8x128)
    (hφ : FKind.Formats .f32) (hacc : (0x00000000#32 : BitVec 32) = FKind.add.neutral .f32 hφ)
    (s' hh : Fin 8) (t : Fin 128) :
    multiReduction (F := Ideal) .add [3] S8x8x128 x 0x00000000#32 h hφ hacc (ix3 s' hh t)
      = ∑ u : Fin 128, x (ix4 s' hh t u) := by
  refine (Ideal.multiReduction_add_single x _ h hφ hacc (ix3 s' hh t)).trans ?_
  exact Finset.sum_congr rfl fun u _ => congrArg x (lift_eq h s' hh t u)

/-! ## The softmax of a row -/

/-- Shifted exponentials divided by their sum, given what the shift and the divisor are on the row. -/
private theorem soft_of (Lg mx sm : FVec Ideal S8x8x128x128 .f32) (s' hh : Fin 8) (t : Fin 128)
    (hmx : ∀ u, mx (ix4 s' hh t u) = rowmax (fun u => Lg (ix4 s' hh t u)))
    (hsm : ∀ u, sm (ix4 s' hh t u) = ∑ u' : Fin 128, exp (subf Lg mx) (ix4 s' hh t u')) (u : Fin 128) :
    divf (exp (subf Lg mx)) sm (ix4 s' hh t u) = soft (fun u => Lg (ix4 s' hh t u)) u := by
  have hexp : ∀ u', exp (subf Lg mx) (ix4 s' hh t u')
      = Ideal.exp (Lg (ix4 s' hh t u') - rowmax (fun u => Lg (ix4 s' hh t u))) := fun u' => by
    show Ideal.exp (Lg (ix4 s' hh t u') - mx (ix4 s' hh t u')) = _
    rw [hmx u']
  show Ideal.div (exp (subf Lg mx) (ix4 s' hh t u)) (sm (ix4 s' hh t u)) = _
  rw [hsm u, hexp u, Finset.sum_congr rfl fun u' _ => hexp u']
  rfl

/-- The kernel's softmax over the key tokens: maximum, shift, exponential, sum, quotient. -/
private theorem softmax_apply (Lg : FVec Ideal S8x8x128x128 .f32) (hr : S8x8x128x128.Reduces [3] S8x8x128)
    (hc : S8x8x128.ShapeCasts S8x8x128x1) (hb : S8x8x128x1.Broadcasts S8x8x128x128)
    (hφ : FKind.Formats .f32) (hm : (0xFF800000#32 : BitVec 32) = FKind.maximumf.neutral .f32 hφ)
    (ha : (0x00000000#32 : BitVec 32) = FKind.add.neutral .f32 hφ) (s' hh : Fin 8) (t u : Fin 128) :
    divf
        (exp (subf Lg (broadcastTo S8x8x128x128
          (shapeCast S8x8x128x1 (multiReduction (F := Ideal) .maximumf [3] S8x8x128 Lg 0xFF800000#32 hr hφ hm) hc) hb)))
        (broadcastTo S8x8x128x128
          (shapeCast S8x8x128x1
            (multiReduction (F := Ideal) .add [3] S8x8x128
              (exp (subf Lg (broadcastTo S8x8x128x128
                (shapeCast S8x8x128x1 (multiReduction (F := Ideal) .maximumf [3] S8x8x128 Lg 0xFF800000#32 hr hφ hm) hc) hb)))
              0x00000000#32 hr hφ ha) hc) hb)
        (ix4 s' hh t u)
      = soft (fun u => Lg (ix4 s' hh t u)) u :=
  soft_of Lg _ _ s' hh t
    (fun u' => (keep_bcast _ hc hb s' hh t u').trans (redmax_apply Lg hr hφ hm s' hh t))
    (fun u' => (keep_bcast _ hc hb s' hh t u').trans (redsum_apply _ hr hφ ha s' hh t)) u

/-- The logits: the products laid out per (position, head), plus the bias of the head. -/
private theorem logits_apply (v39 : FVec Ideal S64x128x128 .f32) (x1 : Vec Ideal S8x128x128 .f32)
    (h1 : S64x128x128.ShapeCasts S8x8x128x128) (h2 : S8x128x128.ShapeCasts S8x128x128)
    (h3 : S8x128x128.ShapeCasts S1x8x128x128) (h4 : S1x8x128x128.Broadcasts S8x8x128x128)
    (s' hh : Fin 8) (t u : Fin 128) :
    addf (F := Ideal) (shapeCast S8x8x128x128 v39 h1)
        (broadcastTo S8x8x128x128 (shapeCast S1x8x128x128 (shapeCast S8x128x128 x1 h2) h3) h4) (ix4 s' hh t u)
      = v39 (ix3 (tile s' hh) t u) + x1 (ix3 hh t u) := by
  show shapeCast S8x8x128x128 v39 h1 (ix4 s' hh t u)
      + broadcastTo S8x8x128x128 (shapeCast S1x8x128x128 (shapeCast S8x128x128 x1 h2) h3) h4 (ix4 s' hh t u) = _
  rw [cast_64_88 v39 h1, bcast_lead _ h4, shapeCast_abc_1abc_apply _ h3, shapeCast_self x1 h2]

/-! ## The weighted sum of values: a product batched over (position, head) -/

private theorem av_lhs_0 (i : S64x128x32.Idx) (q : dot_S64x128x128_S64x128x32_S64x128x32_2_1_1_2_0_0.contr.Idx) :
    (dot_S64x128x128_S64x128x32_S64x128x32_2_1_1_2_0_0.lhsIdx i q 0).val = (i 0).val := by
  unfold DotDims.lhsIdx
  rw [dif_pos (show (0 : Fin S64x128x128.rank) ∈ dot_S64x128x128_S64x128x32_S64x128x32_2_1_1_2_0_0.lhsBatch by decide)]
  rfl
private theorem av_lhs_1 (i : S64x128x32.Idx) (q : dot_S64x128x128_S64x128x32_S64x128x32_2_1_1_2_0_0.contr.Idx) :
    (dot_S64x128x128_S64x128x32_S64x128x32_2_1_1_2_0_0.lhsIdx i q 1).val = (i 1).val := by
  unfold DotDims.lhsIdx
  rw [dif_neg (show ¬(1 : Fin S64x128x128.rank) ∈ dot_S64x128x128_S64x128x32_S64x128x32_2_1_1_2_0_0.lhsBatch by decide), dif_pos (show (1 : Fin S64x128x128.rank) ∈ dot_S64x128x128_S64x128x32_S64x128x32_2_1_1_2_0_0.lhsNonContracting by decide)]
  rfl
private theorem av_lhs_2 (i : S64x128x32.Idx) (q : dot_S64x128x128_S64x128x32_S64x128x32_2_1_1_2_0_0.contr.Idx) :
    (dot_S64x128x128_S64x128x32_S64x128x32_2_1_1_2_0_0.lhsIdx i q 2).val = (q ⟨0, by decide⟩).val :=
  dot_S64x128x128_S64x128x32_S64x128x32_2_1_1_2_0_0.lhsIdx_val_of_single rfl i q
private theorem av_rhs_0 (i : S64x128x32.Idx) (q : dot_S64x128x128_S64x128x32_S64x128x32_2_1_1_2_0_0.contr.Idx) :
    (dot_S64x128x128_S64x128x32_S64x128x32_2_1_1_2_0_0.rhsIdx i q 0).val = (i 0).val := by
  unfold DotDims.rhsIdx
  rw [dif_pos (show (0 : Fin S64x128x32.rank) ∈ dot_S64x128x128_S64x128x32_S64x128x32_2_1_1_2_0_0.rhsBatch by decide)]
  rfl
private theorem av_rhs_1 (i : S64x128x32.Idx) (q : dot_S64x128x128_S64x128x32_S64x128x32_2_1_1_2_0_0.contr.Idx) :
    (dot_S64x128x128_S64x128x32_S64x128x32_2_1_1_2_0_0.rhsIdx i q 1).val = (q ⟨0, by decide⟩).val :=
  dot_S64x128x128_S64x128x32_S64x128x32_2_1_1_2_0_0.rhsIdx_val_of_single rfl i q
private theorem av_rhs_2 (i : S64x128x32.Idx) (q : dot_S64x128x128_S64x128x32_S64x128x32_2_1_1_2_0_0.contr.Idx) :
    (dot_S64x128x128_S64x128x32_S64x128x32_2_1_1_2_0_0.rhsIdx i q 2).val = (i 2).val := by
  unfold DotDims.rhsIdx
  rw [dif_neg (show ¬(2 : Fin S64x128x32.rank) ∈ dot_S64x128x128_S64x128x32_S64x128x32_2_1_1_2_0_0.rhsBatch by decide), dif_pos (show (2 : Fin S64x128x32.rank) ∈ dot_S64x128x128_S64x128x32_S64x128x32_2_1_1_2_0_0.rhsNonContracting by decide)]
  rfl

/-- The batched product into zero at (batch entry, query token, coordinate): the sum over the key tokens. -/
private theorem av_apply (A : FVec Ideal S64x128x128 .bf16) (B : FVec Ideal S64x128x32 .bf16)
    (b : Fin 64) (t : Fin 128) (d : Fin 32) :
    matmul (F := Ideal) dot_S64x128x128_S64x128x32_S64x128x32_2_1_1_2_0_0 none A B (constant S64x128x32 .f32 0x00000000#32) (ix3 b t d)
      = ∑ u : Fin 128, A (ix3 b t u) * B (ix3 b u d) := by
  refine (Ideal.matmul_constant_zero_apply dot_S64x128x128_S64x128x32_S64x128x32_2_1_1_2_0_0 none A B (ix3 b t d)).trans ?_
  rw [← Equiv.sum_comp (contrEquiv1 dot_S64x128x128_S64x128x32_S64x128x32_2_1_1_2_0_0 128 rfl rfl).symm]
  refine Finset.sum_congr rfl fun k _ => ?_
  have hk := contrEquiv1_symm_val dot_S64x128x128_S64x128x32_S64x128x32_2_1_1_2_0_0 128 rfl rfl k
  have el : dot_S64x128x128_S64x128x32_S64x128x32_2_1_1_2_0_0.lhsIdx (ix3 b t d) ((contrEquiv1 dot_S64x128x128_S64x128x32_S64x128x32_2_1_1_2_0_0 128 rfl rfl).symm k) = ix3 b t k := funext fun a => Fin.ext (by
    match a with
    | ⟨0, _⟩ => exact av_lhs_0 _ _
    | ⟨1, _⟩ => exact av_lhs_1 _ _
    | ⟨2, _⟩ => exact (av_lhs_2 _ _).trans hk)
  have er : dot_S64x128x128_S64x128x32_S64x128x32_2_1_1_2_0_0.rhsIdx (ix3 b t d) ((contrEquiv1 dot_S64x128x128_S64x128x32_S64x128x32_2_1_1_2_0_0 128 rfl rfl).symm k) = ix3 b k d := funext fun a => Fin.ext (by
    match a with
    | ⟨0, _⟩ => exact av_rhs_0 _ _
    | ⟨1, _⟩ => exact (av_rhs_1 _ _).trans hk
    | ⟨2, _⟩ => exact av_rhs_2 _ _)
  rw [el, er]

/-- The attention output laid out (token, position, head, coordinate): weights times values, summed over the key tokens. -/
private theorem att_apply (P : FVec Ideal S8x8x128x128 .f32) (v38 : FVec Ideal S64x128x32 .bf16)
    (h1 : S8x8x128x128.ShapeCasts S64x128x128) (hlt : FTy.bits .bf16 < FTy.bits .f32)
    (h2 : S64x128x32.ShapeCasts S8x8x128x32) (h3 : S8x8x128x32.Transposes [2, 0, 1, 3] S128x8x8x32)
    (t : Fin 128) (s' hh : Fin 8) (d : Fin 32) :
    transpose S128x8x8x32 [2, 0, 1, 3]
        (shapeCast S8x8x128x32
          (matmul (F := Ideal) dot_S64x128x128_S64x128x32_S64x128x32_2_1_1_2_0_0 none (truncf .bf16 (shapeCast S64x128x128 P h1) hlt) v38
            (constant S64x128x32 .f32 0x00000000#32)) h2) h3 (ix4 t s' hh d)
      = ∑ u : Fin 128, P (ix4 s' hh t u) * v38 (ix3 (tile s' hh) u d) := by
  refine (transpose_apply _ _ h3 (ix4 t s' hh d) (ix4 s' hh t d) (fun b => match b with
    | ⟨0, _⟩ => rfl
    | ⟨1, _⟩ => rfl
    | ⟨2, _⟩ => rfl
    | ⟨3, _⟩ => rfl)).trans ?_
  refine (cast_64_88d _ h2 s' hh t d).trans ?_
  refine (av_apply _ v38 (tile s' hh) t d).trans ?_
  refine Finset.sum_congr rfl fun u _ => congrArg (· * v38 (ix3 (tile s' hh) u d)) ?_
  exact cast_88_64 P h1 s' hh t u

/-! ## The gate, and the rows of the output projection -/

/-- The gated attention output laid out as rows 8·t + s' of 256 features: feature j is coordinate j mod 32 of head j / 32. -/
private theorem gated_apply (v27 A : FVec Ideal S128x8x8x32 .f32) (h : S128x8x8x32.ShapeCasts S1024x256)
    (t : Fin 128) (s' : Fin 8) (j : Fin 256) :
    shapeCast S1024x256 (mulf (F := Ideal) (logistic v27) A) h (ix2 (row t s') j)
      = Ideal.logistic (v27 (ix4 t s' (hOf j) (dOf j))) * A (ix4 t s' (hOf j) (dOf j)) := by
  refine (shapeCast_apply _ h _ (ix4 t s' (hOf j) (dOf j)) ?_).trans rfl
  rw [Shape.rowMajor_val_four, Shape.rowMajor_val_two]
  show ((t.val * 8 + s'.val) * 8 + j.val / 32) * 32 + j.val % 32 = (t.val * 8 + s'.val) * 256 + j.val
  omega

/-- The output projection of the rows, plus the bias, laid back out as (0, token, position, channel). -/
private theorem out_apply (G : FVec Ideal S1024x256 .f32) (x7 : Vec Ideal S256x256 .f32) (x8 : Vec Ideal S256 .f32)
    (hlt : FTy.bits .bf16 < FTy.bits .f32) (htr : S256x256.Transposes [1, 0] S256x256)
    (hc1 : S256.ShapeCasts S1x256) (hb1 : S1x256.Broadcasts S1024x256)
    (hc2 : S1024x256.ShapeCasts S128x8x256) (hc3 : S128x8x256.ShapeCasts S1x128x8x256)
    (t : Fin 128) (s' : Fin 8) (c : Fin 256) :
    shapeCast S1x128x8x256
        (shapeCast S128x8x256
          (addf (F := Ideal)
            (matmul (F := Ideal) dot_S1024x256_S256x256_S1024x256_1_0_0_1_n_n none (truncf .bf16 G hlt)
              (transpose S256x256 [1, 0] (truncf .bf16 x7 hlt) htr) (constant S1024x256 .f32 0x00000000#32))
            (broadcastTo S1024x256 (shapeCast S1x256 x8 hc1) hb1)) hc2) hc3 (ix4 (0 : Fin 1) t s' c)
      = (∑ j : Fin 256, G (ix2 (row t s') j) * x7 (ix2 c j)) + x8 (ix1 c) := by
  refine (shapeCast_abc_1abc_apply _ hc3 0 t s' c).trans ?_
  refine (shapeCast_apply _ hc2 _ (ix2 (row t s') c) ?_).trans ?_
  · rw [Shape.rowMajor_val_two, Shape.rowMajor_val_three]
    show (t.val * 8 + s'.val) * 256 + c.val = (t.val * 8 + s'.val) * 256 + c.val
    rfl
  show matmul (F := Ideal) dot_S1024x256_S256x256_S1024x256_1_0_0_1_n_n none (truncf .bf16 G hlt)
        (transpose S256x256 [1, 0] (truncf .bf16 x7 hlt) htr) (constant S1024x256 .f32 0x00000000#32) (ix2 (row t s') c)
      + broadcastTo S1024x256 (shapeCast S1x256 x8 hc1) hb1 (ix2 (row t s') c) = _
  rw [broadcastTo_1b_ab_apply _ hb1, shapeCast_a_1a_apply x8 hc1]
  refine congrArg (· + x8 (ix1 c)) ?_
  refine (Cert.LibDot.matmul_zero_apply dot_S1024x256_S256x256_S1024x256_1_0_0_1_n_n rfl rfl
    (fun i q => ?_) (fun i q => dot_S1024x256_S256x256_S1024x256_1_0_0_1_n_n.lhsIdx_val_of_single rfl i q)
    (fun i q => dot_S1024x256_S256x256_S1024x256_1_0_0_1_n_n.rhsIdx_val_of_single rfl i q) (fun i q => ?_) none _ _ (row t s') c).trans ?_
  · unfold DotDims.lhsIdx
    rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
    rfl
  · unfold DotDims.rhsIdx
    rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
    rfl
  refine Finset.sum_congr rfl fun j _ => congrArg (G (ix2 (row t s') j) * ·) ?_
  exact transpose_ix2_apply _ htr j c

/-- The stored block at (0, token, position, channel). -/
theorem pay1_apply (v27 : FVec Ideal S128x8x8x32 .f32) (v38 : FVec Ideal S64x128x32 .bf16) (v39 : FVec Ideal S64x128x128 .f32)
    (x1 : Vec Ideal S8x128x128 .f32) (x7 : Vec Ideal S256x256 .f32) (x8 : Vec Ideal S256 .f32)
    (t : Fin 128) (s' : Fin 8) (c : Fin 256) :
    k0_pay1 (F := Ideal) v27 v38 v39 x1 x7 x8 (ix4 (0 : Fin 1) t s' c)
      = (∑ j : Fin 256, (Ideal.logistic (v27 (ix4 t s' (hOf j) (dOf j)))
            * ∑ t' : Fin 128, soft (fun u => v39 (ix3 (tile s' (hOf j)) t u) + x1 (ix3 (hOf j) t u)) t'
                * v38 (ix3 (tile s' (hOf j)) t' (dOf j)))
          * x7 (ix2 c j)) + x8 (ix1 c) := by
  unfold k0_pay1
  dsimp only
  refine (out_apply _ x7 x8 _ _ _ _ _ _ t s' c).trans ?_
  refine congrArg (· + x8 (ix1 c)) (Finset.sum_congr rfl fun j _ => congrArg (· * x7 (ix2 c j)) ?_)
  refine (gated_apply v27 _ _ t s' j).trans ?_
  refine congrArg (Ideal.logistic (v27 (ix4 t s' (hOf j) (dOf j))) * ·) ?_
  refine (att_apply _ v38 _ _ _ _ t s' (hOf j) (dOf j)).trans ?_
  refine Finset.sum_congr rfl fun t' _ => congrArg (· * v38 (ix3 (tile s' (hOf j)) t' (dOf j))) ?_
  refine (softmax_apply _ _ _ _ _ _ _ s' (hOf j) t t').trans ?_
  refine congrArg (fun L => soft L t') (funext fun u => ?_)
  exact logits_apply v39 x1 _ _ _ _ s' (hOf j) t u

end Cert.KernelIdeal.AxialK

end
-- ==== Proof.KerValue.lean ====
/-
  The kernel's stored block at (0, token t, position s' of the tile, channel c) is the specification's output for
  the tokens of position s' of the input block: the stored value in terms of its three intermediate values, with
  each of those read as a projection of the block.
-/
import proofs.«125228_j68143951119084_2_alg».proof.Proof.KerProj
import proofs.«125228_j68143951119084_2_alg».proof.Proof.KerAttn

noncomputable section

namespace Cert.KernelIdeal.AxialK

open Cert.KernelIdeal Cert.KernelIdeal.Gen Idealize.ShloMosaic Idealize.ShloMosaic.ValueIdx Axial

/-- The stored block at an index is the specification at that position's tokens. -/
theorem payload_apply (x0 : Vec Ideal S1x128x8x256 .f32) (x1 : Vec Ideal S8x128x128 .f32) (x2 x3 x4 x5 : Vec Ideal S256x256 .f32)
    (x6 : Vec Ideal S256 .f32) (x7 : Vec Ideal S256x256 .f32) (x8 : Vec Ideal S256 .f32) (t : Fin 128) (s' : Fin 8) (c : Fin 256) :
    k0_pay1 (F := Ideal) (k0_pay3 x0 x5 x6) (k0_pay4 x0 x4) (k0_pay5 x0 x2 x3) x1 x7 x8 (ix4 (0 : Fin 1) t s' c)
      = out (Xs x0 s') (fun h t t' => x1 (ix3 h t t')) (M x2) (M x3) (M x4) (M x5) (fun j => x6 (ix1 j)) (M x7)
          (fun j => x8 (ix1 j)) t c := by
  rw [pay1_apply]
  unfold out
  refine congrArg (· + x8 (ix1 c)) (Finset.sum_congr rfl fun j _ => ?_)
  refine congrArg (· * x7 (ix2 c j)) ?_
  rw [pay3_apply, hd_hOf_dOf]
  refine congrArg (gate (proj (Xs x0 s') (M x5)) (fun j => x6 (ix1 j)) t j * ·) ?_
  unfold att
  refine Finset.sum_congr rfl fun t' _ => ?_
  rw [pay4_apply]
  refine congrArg (· * proj (Xs x0 s') (M x4) t' (hd (hOf j) (dOf j))) ?_
  refine congrArg (fun L => soft L t') (funext fun u => ?_)
  rw [pay5_apply]
  rfl

end Cert.KernelIdeal.AxialK

end
-- ==== Proof.Whole.lean ====
/-
  The whole result array as one function of the nine argument arrays: at (0, token t, position s, channel c) it is the
  specification's output for position s — that position's 128 tokens, the bias read per head, the weight arrays read
  as matrices — at token t and channel c.
-/
import proofs.«125228_j68143951119084_2_alg».proof.Proof.Spec
import Idealize.ShloMosaic.Lib.ValueIdx

noncomputable section

namespace Axial

open Idealize.ShloMosaic Idealize.ShloMosaic.ValueIdx

/-- The input's and the result's shape: (1, token, position, channel). -/
abbrev SX : Shape := ⟨4, ![1, 128, 1024, 256]⟩
/-- The bias's shape: (1, query token, key token, head). -/
abbrev SB : Shape := ⟨4, ![1, 128, 128, 8]⟩
/-- A weight matrix's shape. -/
abbrev SW : Shape := ⟨2, ![256, 256]⟩
/-- A bias vector's shape. -/
abbrev SV : Shape := ⟨1, ![256]⟩

/-- Position `s` of the input array. -/
def rowsOf (a0 : SX.Idx → EReal) (s : Fin 1024) : Rows := fun t c => a0 (ix4 (0 : Fin 1) t s c)
/-- The bias array per head. -/
def biasOf (a1 : SB.Idx → EReal) : Bias := fun h t t' => a1 (ix4 (0 : Fin 1) t t' h)
/-- A weight array as a matrix. -/
def matOf (w : SW.Idx → EReal) : Mat := fun j c => w (ix2 j c)
/-- A bias vector as a function of the feature. -/
def vecOf (b : SV.Idx → EReal) : Fin 256 → EReal := fun j => b (ix1 j)

/-- The result array. -/
def whole (a0 : SX.Idx → EReal) (a1 : SB.Idx → EReal) (a2 a3 a4 a5 : SW.Idx → EReal) (a6 : SV.Idx → EReal)
    (a7 : SW.Idx → EReal) (a8 : SV.Idx → EReal) : SX.Idx → EReal := fun i =>
  out (rowsOf a0 (⟨(i 2).val, (i 2).isLt⟩ : Fin 1024)) (biasOf a1) (matOf a2) (matOf a3) (matOf a4) (matOf a5) (vecOf a6)
    (matOf a7) (vecOf a8) (⟨(i 1).val, (i 1).isLt⟩ : Fin 128) (⟨(i 3).val, (i 3).isLt⟩ : Fin 256)

/-- The result array at an index written by coordinates. -/
theorem whole_ix4 (a0 : SX.Idx → EReal) (a1 : SB.Idx → EReal) (a2 a3 a4 a5 : SW.Idx → EReal) (a6 : SV.Idx → EReal)
    (a7 : SW.Idx → EReal) (a8 : SV.Idx → EReal) (u : Fin 1) (t : Fin 128) (s : Fin 1024) (c : Fin 256) :
    whole a0 a1 a2 a3 a4 a5 a6 a7 a8 (ix4 u t s c)
      = out (rowsOf a0 s) (biasOf a1) (matOf a2) (matOf a3) (matOf a4) (matOf a5) (vecOf a6) (matOf a7) (vecOf a8) t c := rfl

end Axial

end
-- ==== Proof.KerBlocks.lean ====
/-
  From blocks to the array.  The grid has 128 points; point n stages positions 8n … 8n+7 of the input (all tokens, all
  channels), the whole of each weight array and of the head-major bias, and writes back the same positions of the
  result.  So what point n writes back is block n of the whole-array function, the 128 blocks tile the result array,
  and after the run the array holds that function of the arguments.
-/
import proofs.«125228_j68143951119084_2_alg».proof.Proof.Gen.KernelIdeal.Value
import proofs.«125228_j68143951119084_2_alg».proof.Proof.KerValue
import proofs.«125228_j68143951119084_2_alg».proof.Proof.Whole
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.AxialK

open Cert.KernelIdeal Cert.KernelIdeal.Gen Cert.KernelIdeal.Value Idealize.ShloMosaic.ValueIdx Axial

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The bias as the region finds it: re-laid head-major by the two operations before the region -/

/-- The array the bias window stages is the bias argument with its unit axis dropped and the head axis moved first. -/
theorem biasT (c : Dev nD) : (V m c main_v1 : S8x128x128.Idx → EReal)
    = transpose S8x128x128 [2, 0, 1] (shapeCast S128x128x8 (m ((c : Thread nD τ).loc main_arg1)) shapeCasts_S1x128x128x8_S128x128x8)
        transposes_S128x128x8_S8x128x128_2_0_1 := by
  dsimp only [Gen.V, Gen.hostOps0]
  after_results
  rfl

/-- At (head, query token, key token) it is the bias argument at (0, query token, key token, head). -/
theorem biasT_apply (c : Dev nD) (h : Fin 8) (t u : Fin 128) :
    (V m c main_v1 : S8x128x128.Idx → EReal) (ix3 h t u) = (m ((c : Thread nD τ).loc main_arg1) : S1x128x128x8.Idx → EReal) (ix4 (0 : Fin 1) t u h) := by
  rw [biasT]
  refine (transpose_apply _ _ _ (ix3 h t u) (ix3 t u h) fun b => ?_).trans ?_
  · match b with
    | ⟨0, _⟩ => rfl
    | ⟨1, _⟩ => rfl
    | ⟨2, _⟩ => rfl
  · exact shapeCast_1abc_abc_apply _ _ t u h

/-! ## The printed index maps, decided over the grid -/

/-- Point n's input and output blocks are block (0, 0, n, 0); every other window's block is block 0. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_9.index t (0 : Fin 4) = 0 ∧ win0_9.index t (1 : Fin 4) = 0 ∧ win0_9.index t (2 : Fin 4) = t.val ∧ win0_9.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## One point, over variable blocks -/

/-- If the staged blocks are the arguments read at positions 8n … 8n+7 (the input), head-major (the bias) and whole
    (the weights), the body's stored value at (0, t, s', c) is the whole-array function at (0, t, 8n + s', c). -/
theorem point_eq (a0 : SX.Idx → EReal) (a1 : SB.Idx → EReal) (a2 a3 a4 a5 : SW.Idx → EReal) (a6 : SV.Idx → EReal)
    (a7 : SW.Idx → EReal) (a8 : SV.Idx → EReal)
    (x0 : Vec Ideal S1x128x8x256 .f32) (x1 : Vec Ideal S8x128x128 .f32) (x2 x3 x4 x5 : Vec Ideal S256x256 .f32)
    (x6 : Vec Ideal S256 .f32) (x7 : Vec Ideal S256x256 .f32) (x8 : Vec Ideal S256 .f32) (n : Fin 128)
    (h0 : ∀ (t : Fin 128) (s' : Fin 8) (c : Fin 256),
      x0 (ix4 (0 : Fin 1) t s' c) = a0 (ix4 (0 : Fin 1) t (⟨n.val * 8 + s'.val, by omega⟩ : Fin 1024) c))
    (h1 : ∀ (h : Fin 8) (t u : Fin 128), x1 (ix3 h t u) = a1 (ix4 (0 : Fin 1) t u h))
    (h2 : ∀ (j c : Fin 256), x2 (ix2 j c) = a2 (ix2 j c)) (h3 : ∀ (j c : Fin 256), x3 (ix2 j c) = a3 (ix2 j c))
    (h4 : ∀ (j c : Fin 256), x4 (ix2 j c) = a4 (ix2 j c)) (h5 : ∀ (j c : Fin 256), x5 (ix2 j c) = a5 (ix2 j c))
    (h6 : ∀ (j : Fin 256), x6 (ix1 j) = a6 (ix1 j)) (h7 : ∀ (j c : Fin 256), x7 (ix2 j c) = a7 (ix2 j c))
    (h8 : ∀ (j : Fin 256), x8 (ix1 j) = a8 (ix1 j)) (t : Fin 128) (s' : Fin 8) (c : Fin 256) :
    k0_pay1 (F := Ideal) (k0_pay3 x0 x5 x6) (k0_pay4 x0 x4) (k0_pay5 x0 x2 x3) x1 x7 x8 (ix4 (0 : Fin 1) t s' c)
      = whole a0 a1 a2 a3 a4 a5 a6 a7 a8 (ix4 (0 : Fin 1) t (⟨n.val * 8 + s'.val, by omega⟩ : Fin 1024) c) := by
  rw [payload_apply, whole_ix4]
  have e0 : Xs x0 s' = rowsOf a0 (⟨n.val * 8 + s'.val, by omega⟩ : Fin 1024) := funext fun t => funext fun c => h0 t s' c
  have e1 : (fun h t t' => x1 (ix3 h t t')) = biasOf a1 := funext fun h => funext fun t => funext fun u => h1 h t u
  have e2 : M x2 = matOf a2 := funext fun j => funext fun c => h2 j c
  have e3 : M x3 = matOf a3 := funext fun j => funext fun c => h3 j c
  have e4 : M x4 = matOf a4 := funext fun j => funext fun c => h4 j c
  have e5 : M x5 = matOf a5 := funext fun j => funext fun c => h5 j c
  have e6 : (fun j => x6 (ix1 j)) = vecOf a6 := funext fun j => h6 j
  have e7 : M x7 = matOf a7 := funext fun j => funext fun c => h7 j c
  have e8 : (fun j => x8 (ix1 j)) = vecOf a8 := funext fun j => h8 j
  rw [e0, e1, e2, e3, e4, e5, e6, e7, e8]

/-! ## The windows' blocks read at an index -/

/-- Point n's input block at (0, t, s', c) is the input argument at (0, t, 8n + s', c). -/
theorem iblk0_apply (c : Dev nD) (t : Fin cfg0.N) (tk : Fin 128) (s' : Fin 8) (ch : Fin 256) (hs : t.val * 8 + s'.val < 1024) :
    (iblk m c 0 t : S1x128x8x256.Idx → EReal) (ix4 (0 : Fin 1) tk s' ch)
      = (m ((c : Thread nD τ).loc main_arg0) : S1x128x1024x256.Idx → EReal) (ix4 (0 : Fin 1) tk (⟨t.val * 8 + s'.val, hs⟩ : Fin 1024) ch) := by
  obtain ⟨e0, e1, e2, e3, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = 0; omega
  | ⟨1, _⟩ => show win0_0.index t (1 : Fin 4) * 128 + 1 * tk.val = tk.val; omega
  | ⟨2, _⟩ => show win0_0.index t (2 : Fin 4) * 8 + 1 * s'.val = t.val * 8 + s'.val; omega
  | ⟨3, _⟩ => show win0_0.index t (3 : Fin 4) * 256 + 1 * ch.val = ch.val; omega

/-- Every point's bias block at (head, query token, key token) is the bias argument at (0, query token, key token, head). -/
theorem iblk1_apply (c : Dev nD) (t : Fin cfg0.N) (h : Fin 8) (tq tk : Fin 128) :
    (iblk m c 1 t : S8x128x128.Idx → EReal) (ix3 h tq tk)
      = (m ((c : Thread nD τ).loc main_arg1) : S1x128x128x8.Idx → EReal) (ix4 (0 : Fin 1) tq tk h) := by
  have hf := idx_facts t
  unfold iblk
  rw [View.read_apply]
  show V m c main_v1 _ = _
  refine Eq.trans (congrArg _ (funext fun a => Fin.ext ?_)) (biasT_apply m c h tq tk)
  match a with
  | ⟨0, _⟩ => show win0_1.index t (0 : Fin 3) * 8 + 1 * h.val = h.val; omega
  | ⟨1, _⟩ => show win0_1.index t (1 : Fin 3) * 128 + 1 * tq.val = tq.val; omega
  | ⟨2, _⟩ => show win0_1.index t (2 : Fin 3) * 128 + 1 * tk.val = tk.val; omega

/-- Every point's block of the query weights is the whole argument. -/
theorem iblk2_apply (c : Dev nD) (t : Fin cfg0.N) (j ch : Fin 256) :
    (iblk m c 2 t : S256x256.Idx → EReal) (ix2 j ch) = (m ((c : Thread nD τ).loc main_arg2) : S256x256.Idx → EReal) (ix2 j ch) := by
  have hf := idx_facts t
  unfold iblk
  rw [View.read_apply]
  show V m c main_arg2 _ = _
  rw [V_main_arg2]
  refine congrArg _ (funext fun a => Fin.ext ?_)
  match a with
  | ⟨0, _⟩ => show win0_2.index t (0 : Fin 2) * 256 + 1 * j.val = j.val; omega
  | ⟨1, _⟩ => show win0_2.index t (1 : Fin 2) * 256 + 1 * ch.val = ch.val; omega

/-- Every point's block of the key weights is the whole argument. -/
theorem iblk3_apply (c : Dev nD) (t : Fin cfg0.N) (j ch : Fin 256) :
    (iblk m c 3 t : S256x256.Idx → EReal) (ix2 j ch) = (m ((c : Thread nD τ).loc main_arg3) : S256x256.Idx → EReal) (ix2 j ch) := by
  have hf := idx_facts t
  unfold iblk
  rw [View.read_apply]
  show V m c main_arg3 _ = _
  rw [V_main_arg3]
  refine congrArg _ (funext fun a => Fin.ext ?_)
  match a with
  | ⟨0, _⟩ => show win0_3.index t (0 : Fin 2) * 256 + 1 * j.val = j.val; omega
  | ⟨1, _⟩ => show win0_3.index t (1 : Fin 2) * 256 + 1 * ch.val = ch.val; omega

/-- Every point's block of the value weights is the whole argument. -/
theorem iblk4_apply (c : Dev nD) (t : Fin cfg0.N) (j ch : Fin 256) :
    (iblk m c 4 t : S256x256.Idx → EReal) (ix2 j ch) = (m ((c : Thread nD τ).loc main_arg4) : S256x256.Idx → EReal) (ix2 j ch) := by
  have hf := idx_facts t
  unfold iblk
  rw [View.read_apply]
  show V m c main_arg4 _ = _
  rw [V_main_arg4]
  refine congrArg _ (funext fun a => Fin.ext ?_)
  match a with
  | ⟨0, _⟩ => show win0_4.index t (0 : Fin 2) * 256 + 1 * j.val = j.val; omega
  | ⟨1, _⟩ => show win0_4.index t (1 : Fin 2) * 256 + 1 * ch.val = ch.val; omega

/-- Every point's block of the gate weights is the whole argument. -/
theorem iblk5_apply (c : Dev nD) (t : Fin cfg0.N) (j ch : Fin 256) :
    (iblk m c 5 t : S256x256.Idx → EReal) (ix2 j ch) = (m ((c : Thread nD τ).loc main_arg5) : S256x256.Idx → EReal) (ix2 j ch) := by
  have hf := idx_facts t
  unfold iblk
  rw [View.read_apply]
  show V m c main_arg5 _ = _
  rw [V_main_arg5]
  refine congrArg _ (funext fun a => Fin.ext ?_)
  match a with
  | ⟨0, _⟩ => show win0_5.index t (0 : Fin 2) * 256 + 1 * j.val = j.val; omega
  | ⟨1, _⟩ => show win0_5.index t (1 : Fin 2) * 256 + 1 * ch.val = ch.val; omega

/-- Every point's block of the gate bias is the whole argument. -/
theorem iblk6_apply (c : Dev nD) (t : Fin cfg0.N) (j : Fin 256) :
    (iblk m c 6 t : S256.Idx → EReal) (ix1 j) = (m ((c : Thread nD τ).loc main_arg6) : S256.Idx → EReal) (ix1 j) := by
  have hf := idx_facts t
  unfold iblk
  rw [View.read_apply]
  show V m c main_arg6 _ = _
  rw [V_main_arg6]
  refine congrArg _ (funext fun a => Fin.ext ?_)
  match a with
  | ⟨0, _⟩ => show win0_6.index t (0 : Fin 1) * 256 + 1 * j.val = j.val; omega

/-- Every point's block of the output weights is the whole argument. -/
theorem iblk7_apply (c : Dev nD) (t : Fin cfg0.N) (j ch : Fin 256) :
    (iblk m c 7 t : S256x256.Idx → EReal) (ix2 j ch) = (m ((c : Thread nD τ).loc main_arg7) : S256x256.Idx → EReal) (ix2 j ch) := by
  have hf := idx_facts t
  unfold iblk
  rw [View.read_apply]
  show V m c main_arg7 _ = _
  rw [V_main_arg7]
  refine congrArg _ (funext fun a => Fin.ext ?_)
  match a with
  | ⟨0, _⟩ => show win0_7.index t (0 : Fin 2) * 256 + 1 * j.val = j.val; omega
  | ⟨1, _⟩ => show win0_7.index t (1 : Fin 2) * 256 + 1 * ch.val = ch.val; omega

/-- Every point's block of the output bias is the whole argument. -/
theorem iblk8_apply (c : Dev nD) (t : Fin cfg0.N) (j : Fin 256) :
    (iblk m c 8 t : S256.Idx → EReal) (ix1 j) = (m ((c : Thread nD τ).loc main_arg8) : S256.Idx → EReal) (ix1 j) := by
  have hf := idx_facts t
  unfold iblk
  rw [View.read_apply]
  show V m c main_arg8 _ = _
  rw [V_main_arg8]
  refine congrArg _ (funext fun a => Fin.ext ?_)
  match a with
  | ⟨0, _⟩ => show win0_8.index t (0 : Fin 1) * 256 + 1 * j.val = j.val; omega

/-! ## What a point writes back, the cover, the array after the run -/

/-- The whole-array function of the arguments as launched on core `c`. -/
abbrev G (c : Dev nD) : S1x128x1024x256.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point `t` writes back is block `t` of the whole-array function. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz4]
  simp only [View.ld_unit_zero (S := S1x128x8x256) hz4, View.ld_unit_zero (S := S256x256) hz2, View.ld_unit_zero (S := S256) hz1,
    View.ld_unit_zero (S := S8x128x128) hz3]
  have ht : t.val < 128 := lt_of_lt_of_eq t.isLt N_0
  obtain ⟨-, -, -, -, f0, f1, f2, f3, -⟩ := idx_facts t
  funext j
  obtain ⟨u, tk, s', ch, rfl⟩ : ∃ (u : Fin 1) (tk : Fin 128) (s' : Fin 8) (ch : Fin 256), j = ix4 u tk s' ch :=
    ⟨j 0, j 1, j 2, j 3, eq_ix4 j⟩
  obtain rfl : u = 0 := Subsingleton.elim _ _
  have hs : t.val * 8 + s'.val < 1024 := by omega
  have he : ((cfg0.win 9).blk t).view.emb (ix4 (0 : Fin 1) tk s' ch) = ix4 (0 : Fin 1) tk (⟨t.val * 8 + s'.val, hs⟩ : Fin 1024) ch := by
    funext a; apply Fin.ext
    match a with
    | ⟨0, _⟩ => show win0_9.index t (0 : Fin 4) * 1 + 1 * 0 = 0; omega
    | ⟨1, _⟩ => show win0_9.index t (1 : Fin 4) * 128 + 1 * tk.val = tk.val; omega
    | ⟨2, _⟩ => show win0_9.index t (2 : Fin 4) * 8 + 1 * s'.val = t.val * 8 + s'.val; omega
    | ⟨3, _⟩ => show win0_9.index t (3 : Fin 4) * 256 + 1 * ch.val = ch.val; omega
  show k0_pay1 (F := Ideal) _ _ _ _ _ _ (ix4 (0 : Fin 1) tk s' ch) = G m c (((cfg0.win 9).blk t).view.emb (ix4 (0 : Fin 1) tk s' ch))
  rw [he]
  exact point_eq _ _ _ _ _ _ _ _ _ _ _ _ _ _ _ _ _ _ (⟨t.val, ht⟩ : Fin 128)
    (fun a b d => iblk0_apply m c t a b d (by have := b.isLt; omega)) (iblk1_apply m c t) (iblk2_apply m c t) (iblk3_apply m c t)
    (iblk4_apply m c t) (iblk5_apply m c t) (iblk6_apply m c t) (iblk7_apply m c t) (iblk8_apply m c t) tk s' ch

/-- Every index of the result array is in some point's block: position s is in the block of point s / 8. -/
theorem cover (i : S1x128x1024x256.Idx) : ∃ t : Fin cfg0.N, (cfg0.win 9).flush t = true ∧ i ∈ ((cfg0.win 9).blk t).view.set := by
  have hi0 : (i 0).val < 1 := (i 0).isLt
  have hi1 : (i 1).val < 128 := (i 1).isLt
  have hi2 : (i 2).val < 1024 := (i 2).isLt
  have hi3 : (i 3).val < 256 := (i 3).isLt
  have hN : cfg0.N = 128 := N_0
  let t : Fin cfg0.N := ⟨(i 2).val / 8, by rw [hN]; omega⟩
  obtain ⟨-, -, -, -, f0, f1, f2, f3, -⟩ := idx_facts t
  have f2' : win0_9.index t (2 : Fin 4) = (i 2).val / 8 := f2
  refine ⟨t, flush0_9 t, ?_⟩
  show i ∈ ((View.whole main_v2).slice (win0_9.rect t)).set
  rw [View.set_slice_whole, Rect.mem_set_unit]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 128 ≤ (i 1).val ∧ (i 1).val < win0_9.index t (1 : Fin 4) * 128 + 128; omega
  | ⟨2, _⟩ => show win0_9.index t (2 : Fin 4) * 8 ≤ (i 2).val ∧ (i 2).val < win0_9.index t (2 : Fin 4) * 8 + 8; omega
  | ⟨3, _⟩ => show win0_9.index t (3 : Fin 4) * 256 ≤ (i 3).val ∧ (i 3).val < win0_9.index t (3 : Fin 4) * 256 + 256; omega

/-- After the run the result array holds the whole-array function of the arguments. -/
theorem final (c : Dev nD) : (dats m 0 c).arrAt 9 cfg0.N = G m c :=
  (dats m 0 c).arrAt_eq_of_cover 9 (G m c) (fun t _ => flushed_eq m c t) cover

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.AxialK

end
-- ==== Proof.RefDefs.lean ====
/-
  How the reference's argument arrays are read as the specification's arguments: position `s` of the input gives
  that position's tokens; a weight array is a matrix indexed (output feature, channel); the bias array, stored
  (query token, key token, head), is read per head.
-/
import proofs.«125228_j68143951119084_2_alg».proof.ReferenceIdeal
import proofs.«125228_j68143951119084_2_alg».proof.Proof.Spec
import Idealize.ShloMosaic.Lib.ValueIdx

noncomputable section

namespace Cert.ReferenceIdeal.AxialR

open Cert.ReferenceIdeal Idealize.ShloMosaic Idealize.ShloMosaic.ValueIdx Axial

/-- Position `s` of the input: its 128 tokens of 256 channels. -/
def Xs (x0 : (⟨S1x128x1024x256, .f32⟩ : BufTy).Contents (Elt Ideal)) (s : Fin 1024) : Rows := fun t c => x0 (ix4 (0 : Fin 1) t s c)
/-- A 256 × 256 weight array as a matrix. -/
def M (w : (⟨S256x256, .f32⟩ : BufTy).Contents (Elt Ideal)) : Mat := fun j c => w (ix2 j c)
/-- The bias per head. -/
def Bs (x1 : (⟨S1x128x128x8, .f32⟩ : BufTy).Contents (Elt Ideal)) : Bias := fun h t t' => x1 (ix4 (0 : Fin 1) t t' h)

end Cert.ReferenceIdeal.AxialR

end
-- ==== Proof.RefLogits.lean ====
/-
  Three of the reference's intermediate arrays read at an index: the attention logits and the value projection per
  (position, head), and the gate pre-activation per position.
-/
import proofs.«125228_j68143951119084_2_alg».proof.Proof.Gen.ReferenceIdeal.Read
import proofs.«125228_j68143951119084_2_alg».proof.Proof.RefDefs
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.AxialR

open Cert.ReferenceIdeal Cert.ReferenceIdeal.Read Idealize.ShloMosaic Idealize.ShloMosaic.ValueIdx Axial

/-! ## The input, position-major

Stage 0 swaps the token and position axes of the input and stage 1 drops the leading unit axis, so stage 1 at
(position, token, channel) is the input at (0, token, position, channel). -/

/-- Row-major position ((s·128 + t)·256 + c) of [1024,128,256] splits as (0, s, t, c) in [1,1024,128,256]. -/
private theorem idx_v1 (s : Fin 1024) (t : Fin 128) (c : Fin 256) :
    idx_main_v1 (ix3 s t c) = ix4 (0 : Fin 1) s t c := by
  funext a; refine Fin.ext ?_
  match a with
  | ⟨0, _⟩ => rfl
  | ⟨1, _⟩ => show ((s.val * 128 + t.val) * 256 + c.val) / 32768 % 1024 = s.val; omega
  | ⟨2, _⟩ => show ((s.val * 128 + t.val) * 256 + c.val) / 256 % 128 = t.val; omega
  | ⟨3, _⟩ => show ((s.val * 128 + t.val) * 256 + c.val) % 256 = c.val; omega

/-- The transpose of stage 0 exchanges axes 1 and 2. -/
private theorem idx_v0 (s : Fin 1024) (t : Fin 128) (c : Fin 256) :
    idx_main_v0 (ix4 (0 : Fin 1) s t c) = ix4 (0 : Fin 1) t s c := by
  funext a
  match a with
  | ⟨0, _⟩ => rfl
  | ⟨1, _⟩ => rfl
  | ⟨2, _⟩ => rfl
  | ⟨3, _⟩ => rfl

/-- Stage 1 at (position, token, channel) is that position's token row. -/
private theorem v1_at (x0 : (⟨S1x128x1024x256, .f32⟩ : BufTy).Contents (Elt Ideal)) (s : Fin 1024) (t : Fin 128) (c : Fin 256) :
    val_main_v1 (F := Ideal) x0 (ix3 s t c) = Xs x0 s t c := by
  rw [val_main_v1_apply, idx_v1, val_main_v0_apply, idx_v0]
  rfl

/-! ## The four projections

Stages 2, 3, 4 and 35 contract stage 1's channel axis with a weight matrix's channel axis. -/

/-- The sum a projection stage reads is the specification's projection. -/
private theorem proj_sum (x0 : (⟨S1x128x1024x256, .f32⟩ : BufTy).Contents (Elt Ideal)) (w : (⟨S256x256, .f32⟩ : BufTy).Contents (Elt Ideal)) (s : Fin 1024) (t : Fin 128) (j : Fin 256) :
    (∑ k : Fin 256, val_main_v1 (F := Ideal) x0 (lidx_main_v2 (ix3 s t j) k) * w (ridx_main_v2 (ix3 s t j) k))
      = proj (Xs x0 s) (M w) t j := by
  unfold proj
  refine Finset.sum_congr rfl fun k _ => ?_
  have el : lidx_main_v2 (ix3 s t j) k = ix3 s t k := by
    funext a
    match a with
    | ⟨0, _⟩ => rfl
    | ⟨1, _⟩ => rfl
    | ⟨2, _⟩ => rfl
  have er : ridx_main_v2 (ix3 s t j) k = ix2 j k := by
    funext a
    match a with
    | ⟨0, _⟩ => rfl
    | ⟨1, _⟩ => rfl
  rw [el, er, v1_at]
  rfl

/-- The query projection. -/
private theorem v2_at (x0 : (⟨S1x128x1024x256, .f32⟩ : BufTy).Contents (Elt Ideal)) (x2 : (⟨S256x256, .f32⟩ : BufTy).Contents (Elt Ideal)) (s : Fin 1024) (t : Fin 128) (j : Fin 256) :
    val_main_v2 (F := Ideal) x0 x2 (ix3 s t j) = proj (Xs x0 s) (M x2) t j :=
  (val_main_v2_apply x0 x2 _).trans (proj_sum x0 x2 s t j)

/-- The key projection. -/
private theorem v3_at (x0 : (⟨S1x128x1024x256, .f32⟩ : BufTy).Contents (Elt Ideal)) (x3 : (⟨S256x256, .f32⟩ : BufTy).Contents (Elt Ideal)) (s : Fin 1024) (t : Fin 128) (j : Fin 256) :
    val_main_v3 (F := Ideal) x0 x3 (ix3 s t j) = proj (Xs x0 s) (M x3) t j :=
  (val_main_v3_apply x0 x3 _).trans (proj_sum x0 x3 s t j)

/-- The value projection. -/
private theorem v4_at (x0 : (⟨S1x128x1024x256, .f32⟩ : BufTy).Contents (Elt Ideal)) (x4 : (⟨S256x256, .f32⟩ : BufTy).Contents (Elt Ideal)) (s : Fin 1024) (t : Fin 128) (j : Fin 256) :
    val_main_v4 (F := Ideal) x0 x4 (ix3 s t j) = proj (Xs x0 s) (M x4) t j :=
  (val_main_v4_apply x0 x4 _).trans (proj_sum x0 x4 s t j)

/-- The gate projection. -/
private theorem v35_at (x0 : (⟨S1x128x1024x256, .f32⟩ : BufTy).Contents (Elt Ideal)) (x5 : (⟨S256x256, .f32⟩ : BufTy).Contents (Elt Ideal)) (s : Fin 1024) (t : Fin 128) (j : Fin 256) :
    val_main_v35 (F := Ideal) x0 x5 (ix3 s t j) = proj (Xs x0 s) (M x5) t j :=
  (val_main_v35_apply x0 x5 _).trans (proj_sum x0 x5 s t j)

/-! ## Splitting the features into heads

A projection [1024,128,256] is reshaped to [1024,128,8,32] (feature 32·h + d ↦ (h, d)), the token and head axes are
exchanged, and the position and head axes are merged into one batch axis (batch entry 8·s + h). -/

/-- Batch entry 8·s + h, token t, coordinate d of [8192,128,32] is (s, h, t, d) of [1024,8,128,32]. -/
private theorem idx_v7 (s : Fin 1024) (h : Fin 8) (t : Fin 128) (d : Fin 32) :
    idx_main_v7 (ix3 (batch s h) t d) = ix4 s h t d := by
  funext a; refine Fin.ext ?_
  match a with
  | ⟨0, _⟩ => show (((s.val * 8 + h.val) * 128 + t.val) * 32 + d.val) / 32768 = s.val; omega
  | ⟨1, _⟩ => show (((s.val * 8 + h.val) * 128 + t.val) * 32 + d.val) / 4096 % 8 = h.val; omega
  | ⟨2, _⟩ => show (((s.val * 8 + h.val) * 128 + t.val) * 32 + d.val) / 32 % 128 = t.val; omega
  | ⟨3, _⟩ => show (((s.val * 8 + h.val) * 128 + t.val) * 32 + d.val) % 32 = d.val; omega

/-- The transpose exchanges the head and token axes. -/
private theorem idx_v6 (s : Fin 1024) (h : Fin 8) (t : Fin 128) (d : Fin 32) :
    idx_main_v6 (ix4 s h t d) = ix4 s t h d := by
  funext a
  match a with
  | ⟨0, _⟩ => rfl
  | ⟨1, _⟩ => rfl
  | ⟨2, _⟩ => rfl
  | ⟨3, _⟩ => rfl

/-- (s, t, h, d) of [1024,128,8,32] is (s, t, 32·h + d) of [1024,128,256]. -/
private theorem idx_v5 (s : Fin 1024) (t : Fin 128) (h : Fin 8) (d : Fin 32) :
    idx_main_v5 (ix4 s t h d) = ix3 s t (hd h d) := by
  funext a; refine Fin.ext ?_
  match a with
  | ⟨0, _⟩ => show (((s.val * 128 + t.val) * 8 + h.val) * 32 + d.val) / 32768 = s.val; omega
  | ⟨1, _⟩ => show (((s.val * 128 + t.val) * 8 + h.val) * 32 + d.val) / 256 % 128 = t.val; omega
  | ⟨2, _⟩ => show (((s.val * 128 + t.val) * 8 + h.val) * 32 + d.val) % 256 = h.val * 32 + d.val; omega

/-- The queries per (position, head). -/
private theorem v7_at (x0 : (⟨S1x128x1024x256, .f32⟩ : BufTy).Contents (Elt Ideal)) (x2 : (⟨S256x256, .f32⟩ : BufTy).Contents (Elt Ideal)) (s : Fin 1024) (h : Fin 8) (t : Fin 128) (d : Fin 32) :
    val_main_v7 (F := Ideal) x0 x2 (ix3 (batch s h) t d) = proj (Xs x0 s) (M x2) t (hd h d) := by
  rw [val_main_v7_apply, idx_v7, val_main_v6_apply, idx_v6, val_main_v5_apply, idx_v5, v2_at]

/-- The keys per (position, head). -/
private theorem v10_at (x0 : (⟨S1x128x1024x256, .f32⟩ : BufTy).Contents (Elt Ideal)) (x3 : (⟨S256x256, .f32⟩ : BufTy).Contents (Elt Ideal)) (s : Fin 1024) (h : Fin 8) (t : Fin 128) (d : Fin 32) :
    val_main_v10 (F := Ideal) x0 x3 (ix3 (batch s h) t d) = proj (Xs x0 s) (M x3) t (hd h d) := by
  refine (val_main_v10_apply x0 x3 _).trans ?_
  rw [show idx_main_v10 (ix3 (batch s h) t d) = ix4 s h t d from idx_v7 s h t d]
  refine (val_main_v9_apply x0 x3 _).trans ?_
  rw [show idx_main_v9 (ix4 s h t d) = ix4 s t h d from idx_v6 s h t d]
  refine (val_main_v8_apply x0 x3 _).trans ?_
  rw [show idx_main_v8 (ix4 s t h d) = ix3 s t (hd h d) from idx_v5 s t h d]
  exact v3_at x0 x3 s t (hd h d)

/-- The value projection at (batch entry 8·s + h, token, coordinate). -/
theorem v13_apply (x0 : (⟨S1x128x1024x256, .f32⟩ : BufTy).Contents (Elt Ideal)) (x4 : (⟨S256x256, .f32⟩ : BufTy).Contents (Elt Ideal))
    (s : Fin 1024) (h : Fin 8) (t' : Fin 128) (d : Fin 32) :
    val_main_v13 (F := Ideal) x0 x4 (ix3 (batch s h) t' d) = proj (Xs x0 s) (M x4) t' (hd h d) := by
  refine (val_main_v13_apply x0 x4 _).trans ?_
  rw [show idx_main_v13 (ix3 (batch s h) t' d) = ix4 s h t' d from idx_v7 s h t' d]
  refine (val_main_v12_apply x0 x4 _).trans ?_
  rw [show idx_main_v12 (ix4 s h t' d) = ix4 s t' h d from idx_v6 s h t' d]
  refine (val_main_v11_apply x0 x4 _).trans ?_
  rw [show idx_main_v11 (ix4 s t' h d) = ix3 s t' (hd h d) from idx_v5 s t' h d]
  exact v4_at x0 x4 s t' (hd h d)

/-! ## The scaled queries and the query · key products -/

/-- Stage 14 broadcasts the scale constant. -/
private theorem v14_at (i : S8192x128x32.Idx) : val_main_v14 (F := Ideal) i = scale := by
  rw [val_main_v14_apply]
  rfl

/-- The scaled queries per (position, head). -/
private theorem v15_at (x0 : (⟨S1x128x1024x256, .f32⟩ : BufTy).Contents (Elt Ideal)) (x2 : (⟨S256x256, .f32⟩ : BufTy).Contents (Elt Ideal)) (s : Fin 1024) (h : Fin 8) (t : Fin 128) (d : Fin 32) :
    val_main_v15 (F := Ideal) x0 x2 (ix3 (batch s h) t d) = proj (Xs x0 s) (M x2) t (hd h d) * scale := by
  rw [val_main_v15_apply, v7_at, v14_at]
  rfl

/-- The query · key products per (position, head): a sum over the head's 32 coordinates. -/
private theorem v16_at (x0 : (⟨S1x128x1024x256, .f32⟩ : BufTy).Contents (Elt Ideal)) (x2 : (⟨S256x256, .f32⟩ : BufTy).Contents (Elt Ideal)) (x3 : (⟨S256x256, .f32⟩ : BufTy).Contents (Elt Ideal)) (s : Fin 1024) (h : Fin 8) (t u : Fin 128) :
    val_main_v16 (F := Ideal) x0 x2 x3 (ix3 (batch s h) t u)
      = ∑ d : Fin 32, (proj (Xs x0 s) (M x2) t (hd h d) * scale) * proj (Xs x0 s) (M x3) u (hd h d) := by
  rw [val_main_v16_apply]
  refine Finset.sum_congr rfl fun k _ => ?_
  have el : lidx_main_v16 (ix3 (batch s h) t u) k = ix3 (batch s h) t k := by
    funext a
    match a with
    | ⟨0, _⟩ => rfl
    | ⟨1, _⟩ => rfl
    | ⟨2, _⟩ => rfl
  have er : ridx_main_v16 (ix3 (batch s h) t u) k = ix3 (batch s h) u k := by
    funext a
    match a with
    | ⟨0, _⟩ => rfl
    | ⟨1, _⟩ => rfl
    | ⟨2, _⟩ => rfl
  rw [el, er, v15_at, v10_at]

/-! ## The bias, broadcast over the positions

The bias array (query token, key token, head) is transposed to (head, query token, key token), reshaped through
rank 6 with unit axes, broadcast along the position axis, and merged into the batch axis 8·s + h. -/

/-- The transpose of stage 17 brings the head axis forward. -/
private theorem v17_at (x1 : (⟨S1x128x128x8, .f32⟩ : BufTy).Contents (Elt Ideal)) (h : Fin 8) (t u : Fin 128) :
    val_main_v17 (F := Ideal) x1 (ix4 (0 : Fin 1) h t u) = Bs x1 h t u := by
  rw [val_main_v17_apply]
  have e : idx_main_v17 (ix4 (0 : Fin 1) h t u) = ix4 (0 : Fin 1) t u h := by
    funext a
    match a with
    | ⟨0, _⟩ => rfl
    | ⟨1, _⟩ => rfl
    | ⟨2, _⟩ => rfl
    | ⟨3, _⟩ => rfl
  rw [e]
  rfl

/-- Stage 18 drops the leading unit axis. -/
private theorem v18_at (x1 : (⟨S1x128x128x8, .f32⟩ : BufTy).Contents (Elt Ideal)) (h : Fin 8) (t u : Fin 128) :
    val_main_v18 (F := Ideal) x1 (ix3 h t u) = Bs x1 h t u := by
  rw [val_main_v18_apply]
  have e : idx_main_v18 (ix3 h t u) = ix4 (0 : Fin 1) h t u := by
    funext a; refine Fin.ext ?_
    match a with
    | ⟨0, _⟩ => rfl
    | ⟨1, _⟩ => show ((h.val * 128 + t.val) * 128 + u.val) / 16384 % 8 = h.val; omega
    | ⟨2, _⟩ => show ((h.val * 128 + t.val) * 128 + u.val) / 128 % 128 = t.val; omega
    | ⟨3, _⟩ => show ((h.val * 128 + t.val) * 128 + u.val) % 128 = u.val; omega
  rw [e, v17_at]

/-- Stage 19 inserts three unit axes: the row-major position (h·128 + t)·128 + u is unchanged. -/
private theorem v19_at (x1 : (⟨S1x128x128x8, .f32⟩ : BufTy).Contents (Elt Ideal)) (h : Fin 8) (t u : Fin 128) :
    val_main_v19 (F := Ideal) x1 (ix6 (0 : Fin 1) h (0 : Fin 1) t (0 : Fin 1) u) = Bs x1 h t u := by
  unfold val_main_v19
  refine (shapeCast_apply _ _ _ (ix3 h t u) ?_).trans (v18_at x1 h t u)
  rw [Shape.rowMajor_val_three, Shape.rowMajor_val_six]
  show (h.val * 128 + t.val) * 128 + u.val = ((((0 * 8 + h.val) * 1 + 0) * 128 + t.val) * 1 + 0) * 128 + u.val
  omega

/-- Stage 20 broadcasts along the position axis. -/
private theorem v20_at (x1 : (⟨S1x128x128x8, .f32⟩ : BufTy).Contents (Elt Ideal)) (s : Fin 1024) (h : Fin 8) (t u : Fin 128) :
    val_main_v20 (F := Ideal) x1 (ix6 s h (0 : Fin 1) t (0 : Fin 1) u) = Bs x1 h t u := by
  rw [val_main_v20_apply]
  have e : idx_main_v20 (ix6 s h (0 : Fin 1) t (0 : Fin 1) u) = ix6 (0 : Fin 1) h (0 : Fin 1) t (0 : Fin 1) u := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e, v19_at]

/-- Stage 21 merges the position and head axes: row-major position ((8·s + h)·128 + t)·128 + u on both sides. -/
private theorem v21_at (x1 : (⟨S1x128x128x8, .f32⟩ : BufTy).Contents (Elt Ideal)) (s : Fin 1024) (h : Fin 8) (t u : Fin 128) :
    val_main_v21 (F := Ideal) x1 (ix3 (batch s h) t u) = Bs x1 h t u := by
  unfold val_main_v21
  refine (shapeCast_apply _ _ _
    (ix6 s h (0 : Fin 1) t (0 : Fin 1) u) ?_).trans (v20_at x1 s h t u)
  rw [Shape.rowMajor_val_six, Shape.rowMajor_val_three]
  show ((((s.val * 8 + h.val) * 1 + 0) * 128 + t.val) * 1 + 0) * 128 + u.val
    = ((s.val * 8 + h.val) * 128 + t.val) * 128 + u.val
  omega

/-- The attention logits at (batch entry 8·s + h, query token, key token). -/
theorem v22_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (s : Fin 1024) (h : Fin 8) (t u : Fin 128) :
    val_main_v22 (F := Ideal) x0 x1 x2 x3 (ix3 (batch s h) t u)
      = logit (proj (Xs x0 s) (M x2)) (proj (Xs x0 s) (M x3)) (Bs x1) h t u := by
  rw [val_main_v22_apply, v16_at, v21_at]
  rfl

/-! ## The gate pre-activation -/

/-- The gate pre-activation at (position, token, feature). -/
theorem v38_apply (x0 : (⟨S1x128x1024x256, .f32⟩ : BufTy).Contents (Elt Ideal)) (x5 : (⟨S256x256, .f32⟩ : BufTy).Contents (Elt Ideal))
    (x6 : (⟨S256, .f32⟩ : BufTy).Contents (Elt Ideal)) (s : Fin 1024) (t : Fin 128) (j : Fin 256) :
    val_main_v38 (F := Ideal) x0 x5 x6 (ix3 s t j) = proj (Xs x0 s) (M x5) t j + x6 (ix1 j) := by
  rw [val_main_v38_apply, v35_at, val_main_v37_apply, val_main_v36_apply]
  have e : idx_main_v36 (idx_main_v37 (ix3 s t j)) = ix1 j := by
    funext a
    match a with
    | ⟨0, _⟩ => rfl
  rw [e]
  rfl

end Cert.ReferenceIdeal.AxialR

end
-- ==== Proof.RefOut.lean ====
/-
  The reference's result read at an index, in terms of three of its intermediate arrays: softmax of the logits
  over the key tokens, the weighted sum of values, the gate, and the output projection with its bias.
-/
import proofs.«125228_j68143951119084_2_alg».proof.Proof.Gen.ReferenceIdeal.Read
import proofs.«125228_j68143951119084_2_alg».proof.Proof.RefDefs
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.AxialR

open Cert.ReferenceIdeal Cert.ReferenceIdeal.Read Idealize.ShloMosaic Idealize.ShloMosaic.ValueIdx Axial

/-! ### Index equations: each stage's generated index function at a coordinate-built index. -/

private theorem idx57 (t : Fin 128) (s : Fin 1024) (c : Fin 256) :
    idx_main_v57 (ix4 (0 : Fin 1) t s c) = ix4 (0 : Fin 1) s t c :=
  funext fun a => Fin.ext (by match a with | ⟨0, _⟩ => rfl | ⟨1, _⟩ => rfl | ⟨2, _⟩ => rfl | ⟨3, _⟩ => rfl)

private theorem idx56 (t : Fin 128) (s : Fin 1024) (c : Fin 256) :
    idx_main_v56 (ix4 (0 : Fin 1) s t c) = ix3 s t c :=
  funext fun a => Fin.ext (by
    match a with
    | ⟨0, _⟩ => show (((0 * 1024 + s.val) * 128 + t.val) * 256 + c.val) / 32768 = s.val; omega
    | ⟨1, _⟩ => show (((0 * 1024 + s.val) * 128 + t.val) * 256 + c.val) / 256 % 128 = t.val; omega
    | ⟨2, _⟩ => show (((0 * 1024 + s.val) * 128 + t.val) * 256 + c.val) % 256 = c.val; omega)

private theorem idx54 (t : Fin 128) (s : Fin 1024) (c : Fin 256) :
    idx_main_v54 (ix3 s t c) = ix3 (0 : Fin 1) (0 : Fin 1) c :=
  funext fun a => Fin.ext (by match a with | ⟨0, _⟩ => rfl | ⟨1, _⟩ => rfl | ⟨2, _⟩ => rfl)

private theorem idx53 (c : Fin 256) : idx_main_v53 (ix3 (0 : Fin 1) (0 : Fin 1) c) = ix1 c :=
  funext fun a => Fin.ext (by match a with | ⟨0, _⟩ => rfl)

private theorem lidx52 (t : Fin 128) (s : Fin 1024) (c k : Fin 256) : lidx_main_v52 (ix3 s t c) k = ix3 s t k :=
  funext fun a => Fin.ext (by match a with | ⟨0, _⟩ => rfl | ⟨1, _⟩ => rfl | ⟨2, _⟩ => rfl)

private theorem ridx52 (t : Fin 128) (s : Fin 1024) (c k : Fin 256) : ridx_main_v52 (ix3 s t c) k = ix2 c k :=
  funext fun a => Fin.ext (by match a with | ⟨0, _⟩ => rfl | ⟨1, _⟩ => rfl)

private theorem idx51 (t : Fin 128) (s : Fin 1024) (j : Fin 256) :
    idx_main_v51 (ix3 s t j) = ix4 s t (hOf j) (dOf j) :=
  funext fun a => Fin.ext (by
    match a with
    | ⟨0, _⟩ => show ((s.val * 128 + t.val) * 256 + j.val) / 32768 = s.val; omega
    | ⟨1, _⟩ => show ((s.val * 128 + t.val) * 256 + j.val) / 256 % 128 = t.val; omega
    | ⟨2, _⟩ => show ((s.val * 128 + t.val) * 256 + j.val) / 32 % 8 = j.val / 32; omega
    | ⟨3, _⟩ => show ((s.val * 128 + t.val) * 256 + j.val) % 32 = j.val % 32; omega)

private theorem idx50 (s : Fin 1024) (t : Fin 128) (h : Fin 8) (d : Fin 32) :
    idx_main_v50 (ix4 s t h d) = ix4 s h t d :=
  funext fun a => Fin.ext (by match a with | ⟨0, _⟩ => rfl | ⟨1, _⟩ => rfl | ⟨2, _⟩ => rfl | ⟨3, _⟩ => rfl)

private theorem idx49 (s : Fin 1024) (t : Fin 128) (h : Fin 8) (d : Fin 32) :
    idx_main_v49 (ix4 s h t d) = ix3 (batch s h) t d :=
  funext fun a => Fin.ext (by
    match a with
    | ⟨0, _⟩ => show (((s.val * 8 + h.val) * 128 + t.val) * 32 + d.val) / 4096 = s.val * 8 + h.val; omega
    | ⟨1, _⟩ => show (((s.val * 8 + h.val) * 128 + t.val) * 32 + d.val) / 32 % 128 = t.val; omega
    | ⟨2, _⟩ => show (((s.val * 8 + h.val) * 128 + t.val) * 32 + d.val) % 32 = d.val; omega)

private theorem idx47 (s : Fin 1024) (t : Fin 128) (h : Fin 8) (d : Fin 32) :
    idx_main_v47 (ix3 (batch s h) t d) = ix4 s h t d :=
  funext fun a => Fin.ext (by
    match a with
    | ⟨0, _⟩ => show (((s.val * 8 + h.val) * 128 + t.val) * 32 + d.val) / 32768 = s.val; omega
    | ⟨1, _⟩ => show (((s.val * 8 + h.val) * 128 + t.val) * 32 + d.val) / 4096 % 8 = h.val; omega
    | ⟨2, _⟩ => show (((s.val * 8 + h.val) * 128 + t.val) * 32 + d.val) / 32 % 128 = t.val; omega
    | ⟨3, _⟩ => show (((s.val * 8 + h.val) * 128 + t.val) * 32 + d.val) % 32 = d.val; omega)

private theorem idx46 (s : Fin 1024) (t : Fin 128) (h : Fin 8) (d : Fin 32) :
    idx_main_v46 (ix4 s h t d) = ix4 s t h d :=
  funext fun a => Fin.ext (by match a with | ⟨0, _⟩ => rfl | ⟨1, _⟩ => rfl | ⟨2, _⟩ => rfl | ⟨3, _⟩ => rfl)

private theorem idx45 (s : Fin 1024) (t : Fin 128) (h : Fin 8) (d : Fin 32) :
    idx_main_v45 (ix4 s t h d) = ix3 s t (hd h d) :=
  funext fun a => Fin.ext (by
    match a with
    | ⟨0, _⟩ => show (((s.val * 128 + t.val) * 8 + h.val) * 32 + d.val) / 32768 = s.val; omega
    | ⟨1, _⟩ => show (((s.val * 128 + t.val) * 8 + h.val) * 32 + d.val) / 256 % 128 = t.val; omega
    | ⟨2, _⟩ => show (((s.val * 128 + t.val) * 8 + h.val) * 32 + d.val) % 256 = h.val * 32 + d.val; omega)

private theorem lidx34 (b : Fin 8192) (t k : Fin 128) (d : Fin 32) : lidx_main_v34 (ix3 b t d) k = ix3 b t k :=
  funext fun a => Fin.ext (by match a with | ⟨0, _⟩ => rfl | ⟨1, _⟩ => rfl | ⟨2, _⟩ => rfl)

private theorem ridx34 (b : Fin 8192) (t k : Fin 128) (d : Fin 32) : ridx_main_v34 (ix3 b t d) k = ix3 b k d :=
  funext fun a => Fin.ext (by match a with | ⟨0, _⟩ => rfl | ⟨1, _⟩ => rfl | ⟨2, _⟩ => rfl)

private theorem idx32 (b : Fin 8192) (t u : Fin 128) : idx_main_v32 (ix3 b t u) = ix3 b t (0 : Fin 1) :=
  funext fun a => Fin.ext (by match a with | ⟨0, _⟩ => rfl | ⟨1, _⟩ => rfl | ⟨2, _⟩ => rfl)

private theorem idx31 (b : Fin 8192) (t : Fin 128) : idx_main_v31 (ix3 b t (0 : Fin 1)) = ix2 b t :=
  funext fun a => Fin.ext (by match a with | ⟨0, _⟩ => rfl | ⟨1, _⟩ => rfl)

private theorem idx30 (b : Fin 8192) (t k : Fin 128) : idx_main_v30 (ix2 b t) k = ix3 b t k :=
  funext fun a => Fin.ext (by match a with | ⟨0, _⟩ => rfl | ⟨1, _⟩ => rfl | ⟨2, _⟩ => rfl)

private theorem idx27 (b : Fin 8192) (t u : Fin 128) : idx_main_v27 (ix3 b t u) = ix3 b t (0 : Fin 1) :=
  funext fun a => Fin.ext (by match a with | ⟨0, _⟩ => rfl | ⟨1, _⟩ => rfl | ⟨2, _⟩ => rfl)

private theorem idx26 (b : Fin 8192) (t : Fin 128) : idx_main_v26 (ix3 b t (0 : Fin 1)) = ix2 b t :=
  funext fun a => Fin.ext (by match a with | ⟨0, _⟩ => rfl | ⟨1, _⟩ => rfl)

/-! ### The softmax of a row of logits -/

/-- The reduce-maximum over the key axis is the row's maximum folded from −∞. -/
private theorem v23_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t : Fin 128) :
    val_main_v23 (F := Ideal) x0 x1 x2 x3 (ix2 b t)
      = rowmax (fun u => val_main_v22 (F := Ideal) x0 x1 x2 x3 (ix3 b t u)) := by
  unfold val_main_v23
  generalize val_main_v22 (F := Ideal) x0 x1 x2 x3 = y
  have hR : S8192x128x128.Reduces [2] S8192x128 := by decide
  refine (Host.reduce_eq_fold_single (FloatOps.maximumf (F := Ideal) (φ := .f32)) y (val_main_cst_0 (F := Ideal))
    Gen.reducesTo_S8192x128x128_S8192x128_d2 hR Gen.h_S_ (ix2 b t)).trans ?_
  show (Finset.univ : Finset (Fin 128)).fold max (Ideal.ofBits .f32 0xFF800000#32) (y ∘ hR.lift (ix2 b t))
    = (Finset.univ : Finset (Fin 128)).fold max negInf fun u => y (ix3 b t u)
  refine congrArg ((Finset.univ : Finset (Fin 128)).fold max _) (funext fun u => congrArg y ?_)
  exact funext fun a => Fin.ext (by match a with | ⟨0, _⟩ => rfl | ⟨1, _⟩ => rfl | ⟨2, _⟩ => rfl)

/-- Taking the maximum with −∞ once more changes nothing. -/
private theorem v25_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t : Fin 128) :
    val_main_v25 (F := Ideal) x0 x1 x2 x3 (ix2 b t)
      = rowmax (fun u => val_main_v22 (F := Ideal) x0 x1 x2 x3 (ix3 b t u)) := by
  rw [val_main_v25_apply, v23_apply, val_main_v24_apply, val_main_cst_1_apply]
  exact max_fold_self _ _ _

/-- The row's maximum broadcast back along the key axis. -/
private theorem v27_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t u : Fin 128) :
    val_main_v27 (F := Ideal) x0 x1 x2 x3 (ix3 b t u)
      = rowmax (fun u => val_main_v22 (F := Ideal) x0 x1 x2 x3 (ix3 b t u)) := by
  rw [val_main_v27_apply, idx27, val_main_v26_apply, idx26, v25_apply]

/-- The exponential of a logit shifted by its row's maximum. -/
private theorem v29_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t u : Fin 128) :
    val_main_v29 (F := Ideal) x0 x1 x2 x3 (ix3 b t u)
      = Ideal.exp (val_main_v22 (F := Ideal) x0 x1 x2 x3 (ix3 b t u)
          - rowmax (fun u => val_main_v22 (F := Ideal) x0 x1 x2 x3 (ix3 b t u))) := by
  rw [val_main_v29_apply, val_main_v28_apply, v27_apply]
  rfl

/-- The row's sum of exponentials. -/
private theorem v30_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t : Fin 128) :
    val_main_v30 (F := Ideal) x0 x1 x2 x3 (ix2 b t)
      = ∑ k : Fin 128, Ideal.exp (val_main_v22 (F := Ideal) x0 x1 x2 x3 (ix3 b t k)
          - rowmax (fun u => val_main_v22 (F := Ideal) x0 x1 x2 x3 (ix3 b t u))) := by
  rw [val_main_v30_apply, val_main_cst_2_apply]
  show Ideal.ofBits .f32 0x00000000#32 + _ = _
  rw [Ideal.ofBits_zero_f32, zero_add]
  exact Finset.sum_congr rfl fun k _ => by rw [idx30, v29_apply]

/-- The row's sum broadcast back along the key axis. -/
private theorem v32_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t u : Fin 128) :
    val_main_v32 (F := Ideal) x0 x1 x2 x3 (ix3 b t u)
      = ∑ k : Fin 128, Ideal.exp (val_main_v22 (F := Ideal) x0 x1 x2 x3 (ix3 b t k)
          - rowmax (fun u => val_main_v22 (F := Ideal) x0 x1 x2 x3 (ix3 b t u))) := by
  rw [val_main_v32_apply, idx32, val_main_v31_apply, idx31, v30_apply]

/-- The quotient is the softmax of the row. -/
private theorem v33_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (b : Fin 8192) (t u : Fin 128) :
    val_main_v33 (F := Ideal) x0 x1 x2 x3 (ix3 b t u)
      = soft (fun u => val_main_v22 (F := Ideal) x0 x1 x2 x3 (ix3 b t u)) u := by
  rw [val_main_v33_apply, v29_apply, v32_apply]
  rfl

/-- The attention output: the softmax-weighted sum of the values over the key tokens. -/
private theorem v34_apply (x0 : (⟨S1x128x1024x256, .f32⟩ : BufTy).Contents (Elt Ideal)) (x1 : (⟨S1x128x128x8, .f32⟩ : BufTy).Contents (Elt Ideal))
    (x2 x3 : (⟨S256x256, .f32⟩ : BufTy).Contents (Elt Ideal)) (x4 : (⟨S256x256, .f32⟩ : BufTy).Contents (Elt Ideal))
    (b : Fin 8192) (t : Fin 128) (d : Fin 32) :
    val_main_v34 (F := Ideal) x0 x1 x2 x3 x4 (ix3 b t d)
      = ∑ t' : Fin 128, soft (fun u => val_main_v22 (F := Ideal) x0 x1 x2 x3 (ix3 b t u)) t'
          * val_main_v13 (F := Ideal) x0 x4 (ix3 b t' d) := by
  rw [val_main_v34_apply]
  exact Finset.sum_congr rfl fun k _ => by rw [lidx34, ridx34, v33_apply]

/-! ### The gate -/

/-- The f32 word of the constant one is the extended real 1. -/
private theorem ofBits_one_f32 : Ideal.ofBits .f32 0x3F800000#32 = 1 := by
  simp [Ideal.ofBits, Ideal.ieee]
  rw [← EReal.coe_mul]
  norm_num

/-- One over one plus the exponential of the negated pre-activation: the logistic function. -/
private theorem v44_apply (x0 : (⟨S1x128x1024x256, .f32⟩ : BufTy).Contents (Elt Ideal)) (x5 : (⟨S256x256, .f32⟩ : BufTy).Contents (Elt Ideal))
    (x6 : (⟨S256, .f32⟩ : BufTy).Contents (Elt Ideal)) (s : Fin 1024) (t : Fin 128) (j : Fin 256) :
    val_main_v44 (F := Ideal) x0 x5 x6 (ix3 s t j) = Ideal.logistic (val_main_v38 (F := Ideal) x0 x5 x6 (ix3 s t j)) := by
  rw [val_main_v44_apply, val_main_v43_apply, val_main_cst_4_apply, val_main_v42_apply, val_main_v41_apply,
    val_main_cst_3_apply, val_main_v40_apply, val_main_v39_apply]
  show Ideal.div (Ideal.ofBits .f32 0x3F800000#32)
      (Ideal.ofBits .f32 0x3F800000#32 + Ideal.exp (-(val_main_v38 (F := Ideal) x0 x5 x6 (ix3 s t j)))) = _
  rw [ofBits_one_f32]
  rfl

/-- The gate re-laid per (position, head): feature 32·h + d of token t. -/
private theorem v47_apply (x0 : (⟨S1x128x1024x256, .f32⟩ : BufTy).Contents (Elt Ideal)) (x5 : (⟨S256x256, .f32⟩ : BufTy).Contents (Elt Ideal))
    (x6 : (⟨S256, .f32⟩ : BufTy).Contents (Elt Ideal)) (s : Fin 1024) (h : Fin 8) (t : Fin 128) (d : Fin 32) :
    val_main_v47 (F := Ideal) x0 x5 x6 (ix3 (batch s h) t d)
      = Ideal.logistic (val_main_v38 (F := Ideal) x0 x5 x6 (ix3 s t (hd h d))) := by
  rw [val_main_v47_apply, idx47, val_main_v46_apply, idx46, val_main_v45_apply, idx45, v44_apply]

/-! ### The gated attention output and the output projection -/

/-- The gate times the attention output, per (position, head). -/
private theorem v48_apply (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal)) (s : Fin 1024) (h : Fin 8) (t : Fin 128) (d : Fin 32) :
    val_main_v48 (F := Ideal) x0 x1 x2 x3 x4 x5 x6 (ix3 (batch s h) t d)
      = Ideal.logistic (val_main_v38 (F := Ideal) x0 x5 x6 (ix3 s t (hd h d)))
        * ∑ t' : Fin 128, soft (fun u => val_main_v22 (F := Ideal) x0 x1 x2 x3 (ix3 (batch s h) t u)) t'
            * val_main_v13 (F := Ideal) x0 x4 (ix3 (batch s h) t' d) := by
  rw [val_main_v48_apply, v47_apply, v34_apply]
  rfl

/-- Re-laid back per position: feature j is coordinate j mod 32 of head j / 32. -/
private theorem v51_apply (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal)) (s : Fin 1024) (t : Fin 128) (j : Fin 256) :
    val_main_v51 (F := Ideal) x0 x1 x2 x3 x4 x5 x6 (ix3 s t j)
      = Ideal.logistic (val_main_v38 (F := Ideal) x0 x5 x6 (ix3 s t j))
        * ∑ t' : Fin 128, soft (fun u => val_main_v22 (F := Ideal) x0 x1 x2 x3 (ix3 (batch s (hOf j)) t u)) t'
            * val_main_v13 (F := Ideal) x0 x4 (ix3 (batch s (hOf j)) t' (dOf j)) := by
  rw [val_main_v51_apply, idx51, val_main_v50_apply, idx50, val_main_v49_apply, idx49, v48_apply, hd_hOf_dOf]

/-- The output projection. -/
private theorem v52_apply (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal)) (x7 : (⟨S256x256, .f32⟩ : BufTy).Contents (Elt Ideal))
    (s : Fin 1024) (t : Fin 128) (c : Fin 256) :
    val_main_v52 (F := Ideal) x0 x1 x2 x3 x4 x5 x6 x7 (ix3 s t c)
      = ∑ j : Fin 256, (Ideal.logistic (val_main_v38 (F := Ideal) x0 x5 x6 (ix3 s t j))
            * ∑ t' : Fin 128, soft (fun u => val_main_v22 (F := Ideal) x0 x1 x2 x3 (ix3 (batch s (hOf j)) t u)) t'
                * val_main_v13 (F := Ideal) x0 x4 (ix3 (batch s (hOf j)) t' (dOf j)))
          * x7 (ix2 c j) := by
  rw [val_main_v52_apply]
  exact Finset.sum_congr rfl fun k _ => by rw [lidx52, ridx52, v51_apply]

/-- The output bias broadcast over positions and tokens. -/
private theorem v54_apply (x8 : (⟨S256, .f32⟩ : BufTy).Contents (Elt Ideal)) (s : Fin 1024) (t : Fin 128) (c : Fin 256) :
    val_main_v54 (F := Ideal) x8 (ix3 s t c) = x8 (ix1 c) := by
  rw [val_main_v54_apply, idx54, val_main_v53_apply, idx53]

/-- The result at (0, token, position, channel). -/
theorem v57_apply (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (t : Fin 128) (s : Fin 1024) (c : Fin 256) :
    val_main_v57 (F := Ideal) x0 x1 x2 x3 x4 x5 x6 x7 x8 (ix4 (0 : Fin 1) t s c)
      = (∑ j : Fin 256, (Ideal.logistic (val_main_v38 (F := Ideal) x0 x5 x6 (ix3 s t j))
            * ∑ t' : Fin 128, soft (fun u => val_main_v22 (F := Ideal) x0 x1 x2 x3 (ix3 (batch s (hOf j)) t u)) t'
                * val_main_v13 (F := Ideal) x0 x4 (ix3 (batch s (hOf j)) t' (dOf j)))
          * x7 (ix2 c j)) + x8 (ix1 c) := by
  rw [val_main_v57_apply, idx57, val_main_v56_apply, idx56, val_main_v55_apply, v52_apply, v54_apply]
  rfl

end Cert.ReferenceIdeal.AxialR

end
-- ==== Proof.RefValue.lean ====
/-
  The reference's result array is the whole-array function of its arguments: at (0, token t, position s, channel c)
  the result in terms of three intermediate arrays, each of those read as a projection of position s's tokens.
-/
import proofs.«125228_j68143951119084_2_alg».proof.Proof.RefLogits
import proofs.«125228_j68143951119084_2_alg».proof.Proof.RefOut
import proofs.«125228_j68143951119084_2_alg».proof.Proof.Whole

noncomputable section

namespace Cert.ReferenceIdeal.AxialR

open Cert.ReferenceIdeal Cert.ReferenceIdeal.Read Idealize.ShloMosaic Idealize.ShloMosaic.ValueIdx Axial

/-- The result at an index is the specification at that position's tokens. -/
theorem result_apply (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (t : Fin 128) (s : Fin 1024) (c : Fin 256) :
    val_main_v57 (F := Ideal) x0 x1 x2 x3 x4 x5 x6 x7 x8 (ix4 (0 : Fin 1) t s c)
      = out (Xs x0 s) (Bs x1) (M x2) (M x3) (M x4) (M x5) (fun j => x6 (ix1 j)) (M x7) (fun j => x8 (ix1 j)) t c := by
  rw [v57_apply]
  unfold out
  refine congrArg (· + x8 (ix1 c)) (Finset.sum_congr rfl fun j _ => ?_)
  refine congrArg (· * x7 (ix2 c j)) ?_
  rw [v38_apply]
  refine congrArg (gate (proj (Xs x0 s) (M x5)) (fun j => x6 (ix1 j)) t j * ·) ?_
  unfold att
  refine Finset.sum_congr rfl fun t' _ => ?_
  rw [v13_apply]
  refine congrArg (· * proj (Xs x0 s) (M x4) t' (hd (hOf j) (dOf j))) ?_
  refine congrArg (fun L => soft L t') (funext fun u => ?_)
  rw [v22_apply]

/-- The result array is the whole-array function of the nine arguments. -/
theorem result_eq (x0 : (⟨S1x128x1024x256, .f32⟩ : BufTy).Contents (Elt Ideal)) (x1 : (⟨S1x128x128x8, .f32⟩ : BufTy).Contents (Elt Ideal))
    (x2 x3 x4 x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) :
    val_main_v57 (F := Ideal) x0 x1 x2 x3 x4 x5 x6 x7 x8 = whole x0 x1 x2 x3 x4 x5 x6 x7 x8 := by
  funext i
  obtain ⟨u, t, s, c, rfl⟩ : ∃ (u : Fin 1) (t : Fin 128) (s : Fin 1024) (c : Fin 256), i = ix4 u t s c :=
    ⟨i 0, i 1, i 2, i 3, eq_ix4 i⟩
  obtain rfl : u = 0 := Subsingleton.elim _ _
  rw [whole_ix4]
  exact result_apply x0 x1 x2 x3 x4 x5 x6 x7 x8 t s c

end Cert.ReferenceIdeal.AxialR

end
-- ==== Proof.Claims.lean ====
/-
  The five claims.  The three frames are the generated frame runs (the reference's: its generated run with the result
  dropped); the idealization rewrote nothing, so there is nothing to preserve; and the two idealized programs, run from
  memories agreeing on the nine arguments, both end with the result array at the whole-array function of those
  arguments: the kernel's blocks tile it, and the reference's term, read index by index, is the same function.
-/
import proofs.«125228_j68143951119084_2_alg».proof.Defs
import proofs.«125228_j68143951119084_2_alg».proof.Proof.Gen.Kernel.Frame
import proofs.«125228_j68143951119084_2_alg».proof.Proof.Gen.KernelIdeal.Frame
import proofs.«125228_j68143951119084_2_alg».proof.Proof.Gen.KernelIdeal.Value
import proofs.«125228_j68143951119084_2_alg».proof.Proof.Gen.ReferenceIdeal.Run
import proofs.«125228_j68143951119084_2_alg».proof.Proof.Gen.ReferenceIdeal.Read
import proofs.«125228_j68143951119084_2_alg».proof.Proof.Gen.Pre_finite_inputs
import proofs.«125228_j68143951119084_2_alg».proof.Proof.KerBlocks
import proofs.«125228_j68143951119084_2_alg».proof.Proof.RefValue

noncomputable section

open Idealize.ShloMosaic Idealize.ShloMosaic.TcCoe Idealize.SL.Sem

namespace Cert.Proof.AxialClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the whole-array function of the (agreeing) arguments. -/
theorem algebraic : Cert.algebraic_KernelIdeal_ReferenceIdeal := by
  intro m ρ m' ρ' _ hagree
  refine ⟨fun c => Cert.KernelIdeal.AxialK.G m c, Cert.KernelIdeal.AxialK.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.AxialR.result_eq]
  obtain ⟨e0, e1, e2, e3, e4, e5, e6, e7, e8⟩ := hagree c
  rw [e0, e1, e2, e3, e4, e5, e6, e7, e8]

end Cert.Proof.AxialClaims

end
-- ==== Proof.lean ====
/- The proof of `Cert.Claim`: a Pallas kernel for gated attention along an axis of 128 tokens (8 heads of 32 features,
   tiles of 8 positions per grid point, 128 points) against its jnp reference, equal over the extended reals.
   Proof/Spec.lean states the result for one position as one function of that position's tokens, the bias and the
   weights; Proof/Whole.lean the whole result array; Proof/KerProj.lean, KerAttn.lean and KerValue.lean read the kernel's
   stored block at an index as that function of the staged blocks; Proof/KerBlocks.lean goes from blocks to the array
   (what a point writes back, the cover, the run); Proof/RefLogits.lean, RefOut.lean and RefValue.lean read the
   reference's result at an index as the same function; Proof/Claims.lean proves the five claims. No finiteness is
   used: the two sides are the same sums in the same order, so the precondition is never opened. -/
import proofs.«125228_j68143951119084_2_alg».proof.Defs
import proofs.«125228_j68143951119084_2_alg».proof.Proof.Gen.Kernel
import proofs.«125228_j68143951119084_2_alg».proof.Proof.Gen.Kernel.Skeleton
import proofs.«125228_j68143951119084_2_alg».proof.Proof.Gen.Kernel.Launch
import proofs.«125228_j68143951119084_2_alg».proof.Proof.Gen.Kernel.Points
import proofs.«125228_j68143951119084_2_alg».proof.Proof.Gen.Kernel.Frame
import proofs.«125228_j68143951119084_2_alg».proof.Proof.Gen.KernelIdeal
import proofs.«125228_j68143951119084_2_alg».proof.Proof.Gen.KernelIdeal.Skeleton
import proofs.«125228_j68143951119084_2_alg».proof.Proof.Gen.KernelIdeal.Launch
import proofs.«125228_j68143951119084_2_alg».proof.Proof.Gen.KernelIdeal.Points
import proofs.«125228_j68143951119084_2_alg».proof.Proof.Gen.KernelIdeal.Frame
import proofs.«125228_j68143951119084_2_alg».proof.Proof.Gen.ReferenceIdeal
import proofs.«125228_j68143951119084_2_alg».proof.Proof.Gen.Pre_finite_inputs
import proofs.«125228_j68143951119084_2_alg».proof.Proof.Gen.KernelIdeal.Value
import proofs.«125228_j68143951119084_2_alg».proof.Proof.Gen.ReferenceIdeal.Run
import proofs.«125228_j68143951119084_2_alg».proof.Proof.Gen.ReferenceIdeal.Read
import proofs.«125228_j68143951119084_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  AxialClaims.frame_k, AxialClaims.frame_ki, AxialClaims.frame_ri, AxialClaims.preserves, AxialClaims.algebraic⟩

end Cert.Proof

end
